-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4 : Shape := ⟨3, ![8, 4096, 4]⟩
abbrev S8x4096 : Shape := ⟨2, ![8, 4096]⟩
abbrev S_ : Shape := ⟨0, ![]⟩

class Facts : Prop where
  bcast_S_S8x4096x4 : S_.BroadcastsInDim S8x4096x4 (![] : Fin 0 → Fin S8x4096x4.rank)
  reducesTo_S8x4096x4_S_d0_1_2 : S8x4096x4.ReducesTo [0, 1, 2] S_
  h_S_ : 0 < S_.numel

variable [Facts]

def fn {F : FTy → Type} [FloatOps F] (main_arg0 : FVec F S8x4096x4 .f32) (main_arg1 : IVec S8x4096 32) : IVec S_ 1 :=
  let main_v0 : FVec F S8x4096x4 .f32 := Host.absf main_arg0
  let main_cst : FVec F S_ .f32 := constant S_ .f32 0x7F800000#32
  let main_v1 : FVec F S8x4096x4 .f32 := broadcastInDim S8x4096x4 ![] bcast_S_S8x4096x4 main_cst
  let main_v2 : IVec S8x4096x4 1 := cmpf .olt main_v0 main_v1
  let main_c : IVec S_ 1 := constantI S_ 1 1#1
  let main_v3 : IVec S_ 1 := (fun x v => Host.reduce IntOp.andi x v reducesTo_S8x4096x4_S_d0_1_2 h_S_) main_v2 main_c
  main_v3
-- ==== Kernel.lean ====
abbrev S8x4096x4 : Shape := ⟨3, ![8, 4096, 4]⟩
abbrev S8x4096 : Shape := ⟨2, ![8, 4096]⟩
abbrev S8x4x4096 : Shape := ⟨3, ![8, 4, 4096]⟩
abbrev S8x1x4096 : Shape := ⟨3, ![8, 1, 4096]⟩
abbrev S8x4096x1 : Shape := ⟨3, ![8, 4096, 1]⟩
abbrev S1x1024x4 : Shape := ⟨3, ![1, 1024, 4]⟩
abbrev S1x4x4096 : Shape := ⟨3, ![1, 4, 4096]⟩
abbrev S1x1024x1 : Shape := ⟨3, ![1, 1024, 1]⟩
abbrev S1x1x4096 : Shape := ⟨3, ![1, 1, 4096]⟩
abbrev S1024x1 : Shape := ⟨2, ![1024, 1]⟩
abbrev S1024x4 : Shape := ⟨2, ![1024, 4]⟩
abbrev S1x1x512 : Shape := ⟨3, ![1, 1, 512]⟩
abbrev S1x512 : Shape := ⟨2, ![1, 512]⟩
abbrev S1024x512 : Shape := ⟨2, ![1024, 512]⟩
abbrev S1024 : Shape := ⟨1, ![1024]⟩
abbrev S_ : Shape := ⟨0, ![]⟩

abbrev nBuf : Space → Nat
  | .hbm => 24
  | .vmem => 15
  | .smem => 0
  | _ => 0

abbrev bufTy : (tb : Table) → Fin (tcTables nBuf tb) → BufTy
  | .hbm, ⟨0, _⟩ => ⟨S8x4096x4, .f32⟩
  | .hbm, ⟨1, _⟩ => ⟨S8x4096, .i32⟩
  | .hbm, ⟨2, _⟩ => ⟨S8x4x4096, .f32⟩
  | .hbm, ⟨3, _⟩ => ⟨S8x1x4096, .f32⟩
  | .hbm, ⟨4, _⟩ => ⟨S8x4096, .f32⟩
  | .hbm, ⟨5, _⟩ => ⟨S8x1x4096, .f32⟩
  | .hbm, ⟨6, _⟩ => ⟨S8x4096, .f32⟩
  | .hbm, ⟨7, _⟩ => ⟨S8x1x4096, .f32⟩
  | .hbm, ⟨8, _⟩ => ⟨S8x4096, .f32⟩
  | .hbm, ⟨9, _⟩ => ⟨S8x1x4096, .f32⟩
  | .hbm, ⟨10, _⟩ => ⟨S8x4096, .f32⟩
  | .hbm, ⟨11, _⟩ => ⟨S8x4096, .f32⟩
  | .hbm, ⟨12, _⟩ => ⟨S8x4096, .f32⟩
  | .hbm, ⟨13, _⟩ => ⟨S8x4096, .f32⟩
  | .hbm, ⟨14, _⟩ => ⟨S8x1x4096, .f32⟩
  | .hbm, ⟨15, _⟩ => ⟨S8x1x4096, .i32⟩
  | .hbm, ⟨16, _⟩ => ⟨S8x4096x1, .i32⟩
  | .hbm, ⟨17, _⟩ => ⟨S8x4096x4, .f32⟩
  | .hbm, ⟨18, _⟩ => ⟨S8x4096x1, .i32⟩
  | .hbm, ⟨19, _⟩ => ⟨S8x4096, .i32⟩
  | .hbm, ⟨20, _⟩ => ⟨S_, .i32⟩
  | .hbm, ⟨21, _⟩ => ⟨S8x4096, .i32⟩
  | .hbm, ⟨22, _⟩ => ⟨S8x4096, .i1⟩
  | .hbm, ⟨23, _⟩ => ⟨S8x4096, .i1⟩
  | .local _ .vmem, ⟨0, _⟩ => ⟨S1x1024x4, .f32⟩
  | .local _ .vmem, ⟨1, _⟩ => ⟨S1x1024x4, .f32⟩
  | .local _ .vmem, ⟨2, _⟩ => ⟨S1x4x4096, .f32⟩
  | .local _ .vmem, ⟨3, _⟩ => ⟨S1x4x4096, .f32⟩
  | .local _ .vmem, ⟨4, _⟩ => ⟨S1x1024x1, .i32⟩
  | .local _ .vmem, ⟨5, _⟩ => ⟨S1x1024x1, .i32⟩
  | .local _ .vmem, ⟨6, _⟩ => ⟨S1x1x4096, .i32⟩
  | .local _ .vmem, ⟨7, _⟩ => ⟨S1x1x4096, .i32⟩
  | .local _ .vmem, ⟨8, _⟩ => ⟨S1x1x4096, .f32⟩
  | .local _ .vmem, ⟨9, _⟩ => ⟨S1x1x4096, .f32⟩
  | .local _ .vmem, ⟨10, _⟩ => ⟨S1x1024x4, .f32⟩
  | .local _ .vmem, ⟨11, _⟩ => ⟨S1x1024x4, .f32⟩
  | .local _ .vmem, ⟨12, _⟩ => ⟨S1x1024x1, .i32⟩
  | .local _ .vmem, ⟨13, _⟩ => ⟨S1x1024x1, .i32⟩
  | .local _ .vmem, ⟨14, _⟩ => ⟨S1024x1, .f32⟩
  | _, _ => ⟨S8x4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15_0 : Ref sig .tc := ⟨.hbm, 17, rfl⟩
abbrev main_v15_1 : Ref sig .tc := ⟨.hbm, 18, rfl⟩
abbrev main_v16 : Ref sig .tc := ⟨.hbm, 19, rfl⟩
abbrev main_c : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  let c512_i32 : BitVec 32 := 512#32
  let v12 : BitVec 32 := Scalar.muli c0_i32 c512_i32
  v12
def k0_off1 (c0_i32 : BitVec 32) : Fin 3 → Nat :=
  let c0_7 : Index := 0#32
  let c0_8 : Index := 0#32
  let c512_i32 : BitVec 32 := 512#32
  let v12 : BitVec 32 := Scalar.muli c0_i32 c512_i32
  let v13 : BitVec 32 := v12
  let v14 : Index := Scalar.indexCast v13
  ![0, 0, v14.toNat]
def k0_off2 (c0_i32 : BitVec 32) : Fin 3 → Nat :=
  let c0_9 : Index := 0#32
  let c1 : Index := 1#32
  let c512_i32 : BitVec 32 := 512#32
  let v12 : BitVec 32 := Scalar.muli c0_i32 c512_i32
  let v13 : BitVec 32 := v12
  let v17 : Index := Scalar.indexCast v13
  ![0, 1, v17.toNat]
def k0_off3 (c0_i32 : BitVec 32) : Fin 3 → Nat :=
  let c0_10 : Index := 0#32
  let c2 : Index := 2#32
  let c512_i32 : BitVec 32 := 512#32
  let v12 : BitVec 32 := Scalar.muli c0_i32 c512_i32
  let v13 : BitVec 32 := v12
  let v20 : Index := Scalar.indexCast v13
  ![0, 2, v20.toNat]
def k0_off4 (c0_i32 : BitVec 32) : Fin 3 → Nat :=
  let c0_11 : Index := 0#32
  let c3 : Index := 3#32
  let c512_i32 : BitVec 32 := 512#32
  let v12 : BitVec 32 := Scalar.muli c0_i32 c512_i32
  let v13 : BitVec 32 := v12
  let v23 : Index := Scalar.indexCast v13
  ![0, 3, v23.toNat]
def k0_off5 (c0_i32 : BitVec 32) : Fin 3 → Nat :=
  let c0_12 : Index := 0#32
  let c0_13 : Index := 0#32
  let c512_i32 : BitVec 32 := 512#32
  let v12 : BitVec 32 := Scalar.muli c0_i32 c512_i32
  let v13 : BitVec 32 := v12
  let v26 : Index := Scalar.indexCast v13
  ![0, 0, v26.toNat]
def k0_mult2 : BitVec 32 :=
  let c1_i32 : BitVec 32 := 1#32
  let c512_i32_22 : BitVec 32 := 512#32
  let v62 : BitVec 32 := Scalar.muli c1_i32 c512_i32_22
  v62
def k0_mult3 : BitVec 32 :=
  let c2_i32 : BitVec 32 := 2#32
  let c512_i32_41 : BitVec 32 := 512#32
  let v112 : BitVec 32 := Scalar.muli c2_i32 c512_i32_41
  v112
def k0_mult4 : BitVec 32 :=
  let c3_i32 : BitVec 32 := 3#32
  let c512_i32_60 : BitVec 32 := 512#32
  let v162 : BitVec 32 := Scalar.muli c3_i32 c512_i32_60
  v162
def k0_mult5 : BitVec 32 :=
  let c4_i32 : BitVec 32 := 4#32
  let c512_i32_79 : BitVec 32 := 512#32
  let v212 : BitVec 32 := Scalar.muli c4_i32 c512_i32_79
  v212
def k0_mult6 : BitVec 32 :=
  let c5_i32 : BitVec 32 := 5#32
  let c512_i32_98 : BitVec 32 := 512#32
  let v262 : BitVec 32 := Scalar.muli c5_i32 c512_i32_98
  v262
def k0_mult7 : BitVec 32 :=
  let c6_i32 : BitVec 32 := 6#32
  let c512_i32_117 : BitVec 32 := 512#32
  let v312 : BitVec 32 := Scalar.muli c6_i32 c512_i32_117
  v312
def k0_mult8 : BitVec 32 :=
  let c7_i32 : BitVec 32 := 7#32
  let c512_i32_136 : BitVec 32 := 512#32
  let v362 : BitVec 32 := Scalar.muli c7_i32 c512_i32_136
  v362
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S8x4096x4_S8x4x4096_0_2_1 : S8x4096x4.Transposes [0, 2, 1] S8x4x4096
  slices_S8x4x4096_S8x1x4096_0_0_0 : S8x4x4096.Slices ![0, 0, 0] S8x1x4096
  shapeCasts_S8x1x4096_S8x4096 : S8x1x4096.ShapeCasts S8x4096
  slices_S8x4x4096_S8x1x4096_0_1_0 : S8x4x4096.Slices ![0, 1, 0] S8x1x4096
  slices_S8x4x4096_S8x1x4096_0_2_0 : S8x4x4096.Slices ![0, 2, 0] S8x1x4096
  slices_S8x4x4096_S8x1x4096_0_3_0 : S8x4x4096.Slices ![0, 3, 0] S8x1x4096
  bcast_S8x4096_S8x1x4096_0_2 : S8x4096.BroadcastsInDim S8x1x4096 (![0, 2] : Fin 2 → Fin S8x1x4096.rank)
  shapeCasts_S8x4096_S8x4096x1 : S8x4096.ShapeCasts S8x4096x1
  inb_S1x1024x4_S1x1024x4_0_0_0 : ∀ a, (![0, 0, 0] : Fin 3 → Nat) a + S1x1024x4.size a ≤ S1x1024x4.size a
  h_S1x1024x4 : 0 < S1x1024x4.numel
  shapeCasts_S1x1024x4_S1024x4 : S1x1024x4.ShapeCasts S1024x4
  slices_S1024x4_o0_0_S1024x1 : S1024x4.Slices ![0, 0] S1024x1
  slices_S1024x4_o0_1_S1024x1 : S1024x4.Slices ![0, 1] S1024x1
  slices_S1024x4_o0_2_S1024x1 : S1024x4.Slices ![0, 2] S1024x1
  slices_S1024x4_o0_3_S1024x1 : S1024x4.Slices ![0, 3] S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1x1x512 : 0 < S1x1x512.numel
  shapeCasts_S1x1x512_S1x512 : S1x1x512.ShapeCasts S1x512
  broadcasts_S1x512_S1024x512 : S1x512.Broadcasts S1024x512
  broadcasts_S1024x1_S1024x512 : S1024x1.Broadcasts S1024x512
  shapeCasts_S1x512_S1x512 : S1x512.ShapeCasts S1x512
  reduces_S1024x512_S1024 : S1024x512.Reduces [1] S1024
  shapeCasts_S1024_S1024x1 : S1024.ShapeCasts S1024x1
  natLt_1_32 : 1 < 32
  shapeCasts_S1024x1_S1x1024x1 : S1024x1.ShapeCasts S1x1024x1
  broadcasts_S1024x1_S1024x4 : S1024x1.Broadcasts S1024x4
  shapeCasts_S1024x4_S1x1024x4 : S1024x4.ShapeCasts S1x1024x4
  shapeCasts_S8x4096x1_S8x4096 : S8x4096x1.ShapeCasts S8x4096
  bcast_S_S8x4096 : S_.BroadcastsInDim S8x4096 (![] : Fin 0 → Fin S8x4096.rank)
  hrank0 : 0 < grid0.rank
  k0_mult1_dvd : 512 ∣ k0_mult1.toNat
  k0_off1_inb : ∀ (r : Fin 8), ∀ a, (k0_off1 (BitVec.ofNat 32 r.val)) a + S1x1x512.size a ≤ S1x4x4096.size a
  k0_off2_inb : ∀ (r : Fin 8), ∀ a, (k0_off2 (BitVec.ofNat 32 r.val)) a + S1x1x512.size a ≤ S1x4x4096.size a
  k0_off3_inb : ∀ (r : Fin 8), ∀ a, (k0_off3 (BitVec.ofNat 32 r.val)) a + S1x1x512.size a ≤ S1x4x4096.size a
  k0_off4_inb : ∀ (r : Fin 8), ∀ a, (k0_off4 (BitVec.ofNat 32 r.val)) a + S1x1x512.size a ≤ S1x4x4096.size a
  k0_off5_inb : ∀ (r : Fin 8), ∀ a, (k0_off5 (BitVec.ofNat 32 r.val)) a + S1x1x512.size a ≤ S1x1x4096.size a
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4.size a ≤ S8x4096x4.size a
  hwx0_0 : ∀ i : grid0.Coords, EltTy.bits .f32 = 32 ∨ (Rect.block (s := S8x4096x4) S1x1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x4096.size a ≤ S8x4x4096.size a
  hwx0_1 : ∀ i : grid0.Coords, EltTy.bits .f32 = 32 ∨ (Rect.block (s := S8x4x4096) S1x4x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S8x4096x1.size a
  hwx0_2 : ∀ i : grid0.Coords, EltTy.bits .i32 = 32 ∨ (Rect.block (s := S8x4096x1) S1x1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .i32 = 32 ∨ (Rect.block (s := S8x1x4096) S1x1x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4096.size a ≤ S8x1x4096.size a
  hwx0_4 : ∀ i : grid0.Coords, EltTy.bits .f32 = 32 ∨ (Rect.block (s := S8x1x4096) S1x1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x4.size a ≤ S8x4096x4.size a
  hwx0_5 : ∀ i : grid0.Coords, EltTy.bits .f32 = 32 ∨ (Rect.block (s := S8x4096x4) S1x1024x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1.size a ≤ S8x4096x1.size a
  hwx0_6 : ∀ i : grid0.Coords, EltTy.bits .i32 = 32 ∨ (Rect.block (s := S8x4096x1) S1x1024x1.size (cc0_transform_6 i) (hinb0_6 i)).WholeWords (EltTy.packing .i32)

variable [Facts₀]

abbrev win0_0 : Pipeline.Window sig grid0 :=
  Pipeline.Window.ofSpec (Memref.whole main_arg0) S1x1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S1x1024x4.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S1x1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x4 : Shape := ⟨3, ![8, 4096, 4]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S4096x4096 : Shape := ⟨2, ![4096, 4096]⟩
abbrev S_ : Shape := ⟨0, ![]⟩
abbrev S1x4096x4096 : Shape := ⟨3, ![1, 4096, 4096]⟩

abbrev nBuf : Space → Nat
  | .hbm => 70
  | .vmem => 0
  | .smem => 0
  | _ => 0

abbrev bufTy : (tb : Table) → Fin (tcTables nBuf tb) → BufTy
  | .hbm, ⟨0, _⟩ => ⟨S8x4096x4, .f32⟩
  | .hbm, ⟨1, _⟩ => ⟨S8x4096, .i32⟩
  | .hbm, ⟨2, _⟩ => ⟨S8x4096x1, .f32⟩
  | .hbm, ⟨3, _⟩ => ⟨S8x4096, .f32⟩
  | .hbm, ⟨4, _⟩ => ⟨S8x4096x1, .f32⟩
  | .hbm, ⟨5, _⟩ => ⟨S8x4096, .f32⟩
  | .hbm, ⟨6, _⟩ => ⟨S8x4096x1, .f32⟩
  | .hbm, ⟨7, _⟩ => ⟨S8x4096, .f32⟩
  | .hbm, ⟨8, _⟩ => ⟨S8x4096x1, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S8x4096, .f32⟩
  | .hbm, ⟨13, _⟩ => ⟨S8x1x4096, .f32⟩
  | .hbm, ⟨14, _⟩ => ⟨S8x4096x1, .f32⟩
  | .hbm, ⟨15, _⟩ => ⟨S8x4096x4096, .f32⟩
  | .hbm, ⟨16, _⟩ => ⟨S8x4096x4096, .f32⟩
  | .hbm, ⟨17, _⟩ => ⟨S8x4096x4096, .i1⟩
  | .hbm, ⟨18, _⟩ => ⟨S8x1x4096, .f32⟩
  | .hbm, ⟨19, _⟩ => ⟨S8x4096x1, .f32⟩
  | .hbm, ⟨20, _⟩ => ⟨S8x4096x4096, .f32⟩
  | .hbm, ⟨21, _⟩ => ⟨S8x4096x4096, .f32⟩
  | .hbm, ⟨22, _⟩ => ⟨S8x4096x4096, .i1⟩
  | .hbm, ⟨23, _⟩ => ⟨S8x4096x4096, .i1⟩
  | .hbm, ⟨24, _⟩ => ⟨S8x1x4096, .f32⟩
  | .hbm, ⟨25, _⟩ => ⟨S8x4096x1, .f32⟩
  | .hbm, ⟨26, _⟩ => ⟨S8x4096x4096, .f32⟩
  | .hbm, ⟨27, _⟩ => ⟨S8x4096x4096, .f32⟩
  | .hbm, ⟨28, _⟩ => ⟨S8x4096x4096, .i1⟩
  | .hbm, ⟨29, _⟩ => ⟨S8x4096x4096, .i1⟩
  | .hbm, ⟨30, _⟩ => ⟨S8x1x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S8x4096x4096, .i1⟩
  | .hbm, ⟨35, _⟩ => ⟨S8x4096x4096, .i1⟩
  | .hbm, ⟨36, _⟩ => ⟨S8x4096x1, .i32⟩
  | .hbm, ⟨37, _⟩ => ⟨S8x1x4096, .i32⟩
  | .hbm, ⟨38, _⟩ => ⟨S8x4096x4096, .i32⟩
  | .hbm, ⟨39, _⟩ => ⟨S8x4096x4096, .i32⟩
  | .hbm, ⟨40, _⟩ => ⟨S8x4096x4096, .i1⟩
  | .hbm, ⟨41, _⟩ => ⟨S4096x4096, .i32⟩
  | .hbm, ⟨42, _⟩ => ⟨S4096x4096, .i32⟩
  | .hbm, ⟨43, _⟩ => ⟨S_, .i32⟩
  | .hbm, ⟨44, _⟩ => ⟨S4096x4096, .i32⟩
  | .hbm, ⟨45, _⟩ => ⟨S4096x4096, .i32⟩
  | .hbm, ⟨46, _⟩ => ⟨S4096x4096, .i1⟩
  | .hbm, ⟨47, _⟩ => ⟨S1x4096x4096, .i1⟩
  | .hbm, ⟨48, _⟩ => ⟨S1x4096x4096, .i1⟩
  | .hbm, ⟨49, _⟩ => ⟨S8x4096x4096, .i1⟩
  | .hbm, ⟨50, _⟩ => ⟨S8x4096x4096, .i1⟩
  | .hbm, ⟨51, _⟩ => ⟨S8x4096x4096, .i1⟩
  | .hbm, ⟨52, _⟩ => ⟨S8x1x4096, .f32⟩
  | .hbm, ⟨53, _⟩ => ⟨S_, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S_, .f32⟩
  | .hbm, ⟨58, _⟩ => ⟨S8x4096, .f32⟩
  | .hbm, ⟨59, _⟩ => ⟨S_, .f32⟩
  | .hbm, ⟨60, _⟩ => ⟨S8x4096, .f32⟩
  | .hbm, ⟨61, _⟩ => ⟨S8x4096, .f32⟩
  | .hbm, ⟨62, _⟩ => ⟨S_, .f32⟩
  | .hbm, ⟨63, _⟩ => ⟨S8x4096, .f32⟩
  | .hbm, ⟨64, _⟩ => ⟨S8x4096, .f32⟩
  | .hbm, ⟨65, _⟩ => ⟨S8x4096, .i1⟩
  | .hbm, ⟨66, _⟩ => ⟨S8x4096x1, .i1⟩
  | .hbm, ⟨67, _⟩ => ⟨S8x4096x1, .f32⟩
  | .hbm, ⟨68, _⟩ => ⟨S8x4096x4, .f32⟩
  | .hbm, ⟨69, _⟩ => ⟨S8x4096x4, .f32⟩
  | _, _ => ⟨S8x4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_c : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_cst : Ref sig .tc := ⟨.hbm, 53, rfl⟩
abbrev main_call0_v0 : Ref sig .tc := ⟨.hbm, 54, rfl⟩
abbrev main_call0_v1 : Ref sig .tc := ⟨.hbm, 55, rfl⟩
abbrev main_v50 : Ref sig .tc := ⟨.hbm, 56, rfl⟩
abbrev main_cst_0 : Ref sig .tc := ⟨.hbm, 57, rfl⟩
abbrev main_v51 : Ref sig .tc := ⟨.hbm, 58, rfl⟩
abbrev main_cst_1 : Ref sig .tc := ⟨.hbm, 59, rfl⟩
abbrev main_v52 : Ref sig .tc := ⟨.hbm, 60, rfl⟩
abbrev main_v53 : Ref sig .tc := ⟨.hbm, 61, rfl⟩
abbrev main_cst_2 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩

abbrev nD : Nat := 1
abbrev τ : Topo := Topo.v7x

variable {F : FTy → Type} [FloatOps F]

class Facts₀ : Prop where
  slices_S8x4096x4_S8x4096x1_0_0_0 : S8x4096x4.Slices ![0, 0, 0] S8x4096x1
  shapeCasts_S8x4096x1_S8x4096 : S8x4096x1.ShapeCasts S8x4096
  slices_S8x4096x4_S8x4096x1_0_0_1 : S8x4096x4.Slices ![0, 0, 1] S8x4096x1
  slices_S8x4096x4_S8x4096x1_0_0_2 : S8x4096x4.Slices ![0, 0, 2] S8x4096x1
  slices_S8x4096x4_S8x4096x1_0_0_3 : S8x4096x4.Slices ![0, 0, 3] S8x4096x1
  bcast_S8x4096_S8x1x4096_0_2 : S8x4096.BroadcastsInDim S8x1x4096 (![0, 2] : Fin 2 → Fin S8x1x4096.rank)
  bcast_S8x4096_S8x4096x1_0_1 : S8x4096.BroadcastsInDim S8x4096x1 (![0, 1] : Fin 2 → Fin S8x4096x1.rank)
  bcast_S8x1x4096_S8x4096x4096_0_1_2 : S8x1x4096.BroadcastsInDim S8x4096x4096 (![0, 1, 2] : Fin 3 → Fin S8x4096x4096.rank)
  bcast_S8x4096x1_S8x4096x4096_0_1_2 : S8x4096x1.BroadcastsInDim S8x4096x4096 (![0, 1, 2] : Fin 3 → Fin S8x4096x4096.rank)
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S8x4096x4096_0_1_2 : S1x4096x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096x1_S8x4096x4_0_1_2 : S8x4096x1.BroadcastsInDim S8x4096x4 (![0, 1, 2] : Fin 3 → Fin S8x4096x4.rank)

variable [Facts₀]

class Facts : Prop extends Facts₀ where

variable [Facts]
-- ==== Proof.BodyPasses.lean ====
/-
  What the kernel body leaves in its two output blocks, as a closed term of its five input blocks.

  The body zeroes a column accumulator (one entry per row of the 1024-box block), then makes eight passes, pass c over
  boxes 512 c … 512 c + 511 of the whole batch: it compares every row box against the 512 lane boxes (four side
  comparisons and a class test), selects the lane box's area where all five hold and zero elsewhere, sums along the lanes,
  and adds the row sums into the accumulator.  At the end it subtracts the row box's own area, compares with the
  allowance, and stores the keep bit (widened to 32 bits) and the row boxes scaled by it.
  Every pass is the same arithmetic on different lanes: `pass` below; the eight of them differ only in where the
  program text happened to be cut, which is immaterial (each is the same composition of the same operations).
-/
import proofs.«123981_j33380485824748_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.BoxFilter.Body

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A read through the whole block, after stores each of which covered the whole block, reads the LAST store's value. -/
theorem readCov_last {sig : RefSig} {κ : Kind} {sp : Space} {Val : EltTy → Type} [∀ e, Nonempty (Val e)] {S : Shape} {e : EltTy}
    (v : View sig κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl, View.ld_unit_zero rfl]

/-- Lanes 512 c … 512 c + 511 of row k of the transposed boxes (a 1 × 4 × 4096 block). -/
def rowRect (k : Fin 4) (c : Fin 8) : Rect S1x4x4096 :=
  Rect.unit ![0, k.val, 512 * c.val] S1x1x512.size (fun a => by
    have hk := k.isLt; have hc := c.isLt
    match a with
    | ⟨0, _⟩ => show 0 + 1 ≤ 1; omega
    | ⟨1, _⟩ => show k.val + 1 ≤ 4; omega
    | ⟨2, _⟩ => show 512 * c.val + 512 ≤ 4096; omega)

/-- The same lanes of a 1 × 1 × 4096 block (the lane classes, the lane areas). -/
def laneRect (c : Fin 8) : Rect S1x1x4096 :=
  Rect.unit ![0, 0, 512 * c.val] S1x1x512.size (fun a => by
    have hc := c.isLt
    match a with
    | ⟨0, _⟩ => show 0 + 1 ≤ 1; omega
    | ⟨1, _⟩ => show 0 + 1 ≤ 1; omega
    | ⟨2, _⟩ => show 512 * c.val + 512 ≤ 4096; omega)

/-- ONE PASS: the row boxes' four sides `s0 … s3` and classes `cl` (columns), the lane boxes' four sides `l0 … l3`,
    classes `lc` and areas `la` (rows of 512), the accumulator `acc`: the accumulator plus, per row, the sum over the
    lanes of the lane area where the lane box is inside the row box. -/
def pass (s0 s1 s2 s3 : FVec F S1024x1 .f32) (cl : IVec S1024x1 32)
    (l0 l1 l2 l3 : Vec F S1x1x512 .f32) (lc : Vec F S1x1x512 .i32) (la : Vec F S1x1x512 .f32)
    (acc : Vec F S1024x1 .f32) : FVec F S1024x1 .f32 :=
  have m0 : IVec S1024x512 1 := cmpf .oge (broadcastTo S1024x512 (shapeCast S1x512 l0 shapeCasts_S1x1x512_S1x512) broadcasts_S1x512_S1024x512) (broadcastTo S1024x512 s0 broadcasts_S1024x1_S1024x512)
  have m1 : IVec S1024x512 1 := cmpf .oge (broadcastTo S1024x512 (shapeCast S1x512 l1 shapeCasts_S1x1x512_S1x512) broadcasts_S1x512_S1024x512) (broadcastTo S1024x512 s1 broadcasts_S1024x1_S1024x512)
  have m2 : IVec S1024x512 1 := cmpf .ole (broadcastTo S1024x512 (shapeCast S1x512 l2 shapeCasts_S1x1x512_S1x512) broadcasts_S1x512_S1024x512) (broadcastTo S1024x512 s2 broadcasts_S1024x1_S1024x512)
  have m3 : IVec S1024x512 1 := cmpf .ole (broadcastTo S1024x512 (shapeCast S1x512 l3 shapeCasts_S1x1x512_S1x512) broadcasts_S1x512_S1024x512) (broadcastTo S1024x512 s3 broadcasts_S1024x1_S1024x512)
  have mc : IVec S1024x512 1 := cmpi .eq (broadcastTo S1024x512 cl broadcasts_S1024x1_S1024x512) (broadcastTo S1024x512 (shapeCast S1x512 lc shapeCasts_S1x1x512_S1x512) broadcasts_S1x512_S1024x512)
  have mask : IVec S1024x512 1 := andi (andi (andi (andi m0 m1) m2) m3) mc
  have ar : FVec F S1024x512 .f32 := broadcastTo S1024x512 (shapeCast S1x512 (shapeCast S1x512 la shapeCasts_S1x1x512_S1x512) shapeCasts_S1x512_S1x512) broadcasts_S1x512_S1024x512
  have sel : FVec F S1024x512 .f32 := select mask ar (broadcast S1024x512 (Scalar.ofBits .f32 0x00000000#32))
  have rs : FVec F S1024 .f32 := multiReduction .add [1] S1024 sel 0x00000000#32 reduces_S1024x512_S1024 (.inl rfl) rfl
  shapeCast S1024x1 (addf acc (shapeCast S1024x1 rs shapeCasts_S1024_S1024x1)) shapeCasts_S1024x1_S1024x1

variable (x0 : Vec F S1x1024x4 .f32) (x1 : Vec F S1x4x4096 .f32) (x2 : Vec F S1x1024x1 .i32)
  (x3 : Vec F S1x1x4096 .i32) (x4 : Vec F S1x1x4096 .f32)

/-- Pass c on the block's own rows and lanes 512 c … of the batch. -/
def passAt (c : Fin 8) (acc : Vec F S1024x1 .f32) : FVec F S1024x1 .f32 :=
  pass (k0_pay5 x0) (k0_pay6 x0) (k0_pay7 x0) (k0_pay8 x0) (k0_pay9 x2)
    (View.ld x1 (rowRect 0 c)) (View.ld x1 (rowRect 1 c)) (View.ld x1 (rowRect 2 c)) (View.ld x1 (rowRect 3 c))
    (View.ld x3 (laneRect c)) (View.ld x4 (laneRect c)) acc

/-- The accumulator after the eight passes, from zero. -/
def accAll : FVec F S1024x1 .f32 :=
  passAt x0 x1 x2 x3 x4 7 (passAt x0 x1 x2 x3 x4 6 (passAt x0 x1 x2 x3 x4 5 (passAt x0 x1 x2 x3 x4 4
    (passAt x0 x1 x2 x3 x4 3 (passAt x0 x1 x2 x3 x4 2 (passAt x0 x1 x2 x3 x4 1 (passAt x0 x1 x2 x3 x4 0 (k0_pay10 (F := F)))))))))

/-- The row boxes' own areas. -/
def ownArea : FVec F S1024x1 .f32 := k0_pay49 (k0_pay5 x0) (k0_pay6 x0) (k0_pay7 x0) (k0_pay8 x0)

/-- The accumulator less the own area. -/
def others : FVec F S1024x1 .f32 := k0_pay50 (k0_pay5 x0) (k0_pay6 x0) (k0_pay7 x0) (k0_pay8 x0) (accAll x0 x1 x2 x3 x4)

/-- What the body stores in the keep block, and in the boxes block. -/
def keepOut : IVec S1x1024x1 32 := k0_pay2 (ownArea x0) (others x0 x1 x2 x3 x4)
def boxesOut : FVec F S1x1024x4 .f32 := k0_pay3 (k0_pay4 x0) (ownArea x0) (others x0 x1 x2 x3 x4)

/-! ## The run's output blocks are those terms -/

section Found

variable (c : Dev nD) (i : grid0.Coords) (arg2 : Memref sig .tc .vmem S1x1024x4 .f32) (harg2 : arg2.IsWhole) (arg3 : Memref sig .tc .vmem S1x4x4096 .f32) (harg3 : arg3.IsWhole) (arg4 : Memref sig .tc .vmem S1x1024x1 .i32) (harg4 : arg4.IsWhole) (arg5 : Memref sig .tc .vmem S1x1x4096 .i32) (harg5 : arg5.IsWhole) (arg6 : Memref sig .tc .vmem S1x1x4096 .f32) (harg6 : arg6.IsWhole) (arg7 : Memref sig .tc .vmem S1x1024x4 .f32) (harg7 : arg7.IsWhole) (arg8 : Memref sig .tc .vmem S1x1024x1 .i32) (harg8 : arg8.IsWhole) (arg9 : Memref sig .tc .vmem S1024x1 .f32) (harg9 : arg9.IsWhole)
    (x0 : Vec F S1x1024x4 .f32) (x1 : Vec F S1x4x4096 .f32) (x2 : Vec F S1x1024x1 .i32) (x3 : Vec F S1x1x4096 .i32) (x4 : Vec F S1x1x4096 .f32)

/-- The keep block the run leaves: its one covering store's payload, the accumulator's reads going back through the
    eight covered stores to the zero. -/
theorem keep_found : out0_A_6 c i arg2 harg2 arg3 harg3 arg4 harg4 arg5 harg5 arg6 harg6 arg7 harg7 arg8 harg8 arg9 harg9 x0 x1 x2 x3 x4 = keepOut x0 x1 x2 x3 x4 := by
  unfold out0_A_6
  rw [View.read_writes_eq_canon _ _ _ (cover0_A_6 c i arg2 harg2 arg3 harg3 arg4 harg4 arg5 harg5 arg6 harg6 arg7 harg7 arg8 harg8 arg9 harg9 x0 x1 x2 x3 x4)]
  unfold kernelRun0_A
  dsimp only
  sl_unfold_words
  rw [View.canon_unit_zero hz3]
  simp only [readCov_last (S := S1024x1) _ hz2]
  simp only [View.readAt_eq_ld, harg2.read_unread, harg3.read_unread,
    harg4.read_unread, harg5.read_unread, harg6.read_unread, View.ld_unit_zero (S := S1x1024x4) hz3,
    View.ld_unit_zero (S := S1x1024x1) hz3]
  rfl

/-- The boxes block the run leaves. -/
theorem boxes_found : out0_A_5 c i arg2 harg2 arg3 harg3 arg4 harg4 arg5 harg5 arg6 harg6 arg7 harg7 arg8 harg8 arg9 harg9 x0 x1 x2 x3 x4 = boxesOut x0 x1 x2 x3 x4 := by
  unfold out0_A_5
  rw [View.read_writes_eq_canon _ _ _ (cover0_A_5 c i arg2 harg2 arg3 harg3 arg4 harg4 arg5 harg5 arg6 harg6 arg7 harg7 arg8 harg8 arg9 harg9 x0 x1 x2 x3 x4)]
  unfold kernelRun0_A
  dsimp only
  sl_unfold_words
  rw [View.canon_unit_zero hz3]
  simp only [readCov_last (S := S1024x1) _ hz2]
  simp only [View.readAt_eq_ld, harg2.read_unread, harg3.read_unread,
    harg4.read_unread, harg5.read_unread, harg6.read_unread, View.ld_unit_zero (S := S1x1024x4) hz3,
    View.ld_unit_zero (S := S1x1024x1) hz3]
  rfl

end Found

end Cert.BoxFilter.Body

end
-- ==== Proof.Containment.lean ====
/-
  The mathematics of the filter, over the extended reals and with no program in sight.

  A batch holds 4096 boxes (x1, y1, x2, y2) with a class id each.  Box j is INSIDE box i when its four sides lie within
  i's and the two classes agree.  Box i is KEPT when the total area of the boxes inside it, other than itself, is at
  most a fixed fraction of its own area (plus a small constant).  A kept box passes through; a dropped one is zeroed.

  One side of the certificate sums the areas over every j except i (an off-diagonal mask).  The other sums over EVERY j
  — in eight runs of 512 consecutive boxes, added left to right — and then subtracts box i's own area.  Box i is always
  inside itself (the comparisons are reflexive and its class equals its own), so the full sum is its own area plus the
  off-diagonal sum; a sum of extended reals may be re-ordered and re-grouped freely; and (a + S) - a = S as soon as the
  area a is a real number, which it is when the four coordinates are finite.  That is the one law that needs finiteness.
-/
import Idealize.ShloMosaic.PureOps.Ideal
import Idealize.ShloMosaic.PureOps.Ideal.Laws
import Idealize.ShloMosaic.Lib.ValueIdx

noncomputable section

open scoped BigOperators

namespace Cert.BoxFilter

open Idealize.ShloMosaic Idealize.ShloMosaic.ValueIdx

/-- The boxes of all batches: coordinate k of box j of batch b at (b, j, k). -/
abbrev Boxes : Type := (⟨3, ![8, 4096, 4]⟩ : Shape).Idx → EReal
/-- The class ids: box j of batch b at (b, j). -/
abbrev Classes : Type := (⟨2, ![8, 4096]⟩ : Shape).Idx → BitVec 32

/-- The three float constants, as the words both programs carry. -/
abbrev zeroW : EReal := Ideal.ofBits .f32 0x00000000#32
abbrev epsW : EReal := Ideal.ofBits .f32 0x3089705F#32
abbrev fracW : EReal := Ideal.ofBits .f32 0x3F4CCCCD#32

variable (X : Boxes) (K : Classes)

/-- Width times height of box j. -/
def area (b : Fin 8) (j : Fin 4096) : EReal :=
  (X (ix3 b j 2) - X (ix3 b j 0)) * (X (ix3 b j 3) - X (ix3 b j 1))

/-- Box j lies inside box i and has i's class: the conjunction of the four side comparisons and the class test, as the
    one-bit word the programs compute (the conjuncts in their order). -/
def inside (b : Fin 8) (i j : Fin 4096) : BitVec 1 :=
  IntOp.andi (IntOp.andi (IntOp.andi (IntOp.andi
    (FloatOps.cmpf (F := Ideal) (φ := .f32) .oge (X (ix3 b j 0)) (X (ix3 b i 0)))
    (FloatOps.cmpf (F := Ideal) (φ := .f32) .oge (X (ix3 b j 1)) (X (ix3 b i 1))))
    (FloatOps.cmpf (F := Ideal) (φ := .f32) .ole (X (ix3 b j 2)) (X (ix3 b i 2))))
    (FloatOps.cmpf (F := Ideal) (φ := .f32) .ole (X (ix3 b j 3)) (X (ix3 b i 3))))
    (IntOp.cmpi .eq (K (ix2 b i)) (K (ix2 b j)))

/-- "j is not i", as the word computed from two index counters (row counter plus zero against column counter). -/
def offDiag (i j : Fin 4096) : BitVec 1 :=
  ~~~(IntOp.cmpi .eq (IntOp.addi (BitVec.ofNat 32 i.val) 0#32) (BitVec.ofNat 32 j.val))

/-- Box j's area if it is inside box i, else zero. -/
def covered (b : Fin 8) (i j : Fin 4096) : EReal :=
  Scalar.select (inside X K b i j) (area X b j) zeroW

/-- The allowance of box i: the fraction of (its area plus the small constant). -/
def allowance (b : Fin 8) (i : Fin 4096) : EReal := fracW * (area X b i + epsW)

/-- THE OFF-DIAGONAL SIDE: zero plus the sum over all j of box j's area where j is inside i AND j is not i. -/
def sumOthers (b : Fin 8) (i : Fin 4096) : EReal :=
  zeroW + ∑ j : Fin 4096, Scalar.select (IntOp.andi (inside X K b i j) (offDiag i j)) (area X b j) zeroW

def keepOthers (b : Fin 8) (i : Fin 4096) : BitVec 1 :=
  FloatOps.cmpf (F := Ideal) (φ := .f32) .ole (sumOthers X K b i) (allowance X b i)

/-- Box l of run c: box 512 c + l. -/
def runIdx (c : Fin 8) (l : Fin 512) : Fin 4096 := ⟨512 * c.val + l.val, by have := c.isLt; have := l.isLt; omega⟩

/-- The covered area over run c. -/
def runSum (b : Fin 8) (i : Fin 4096) (c : Fin 8) : EReal := ∑ l : Fin 512, covered X K b i (runIdx c l)

/-- THE FULL-SUM SIDE: the eight runs added left to right onto zero, then box i's own area subtracted. -/
def sumAll (b : Fin 8) (i : Fin 4096) : EReal :=
  zeroW + runSum X K b i 0 + runSum X K b i 1 + runSum X K b i 2 + runSum X K b i 3
    + runSum X K b i 4 + runSum X K b i 5 + runSum X K b i 6 + runSum X K b i 7

def keepAll (b : Fin 8) (i : Fin 4096) : BitVec 1 :=
  FloatOps.cmpf (F := Ideal) (φ := .f32) .ole (sumAll X K b i - area X b i) (allowance X b i)

/-! ## The law -/

theorem zeroW_eq : zeroW = 0 := Ideal.ofBits_zero_f32

/-- The eight runs tile the 4096 boxes: added up they are the sum over all boxes. -/
theorem runs_eq_sum (f : Fin 4096 → EReal) :
    (0 : EReal) + (∑ l : Fin 512, f (runIdx 0 l)) + (∑ l : Fin 512, f (runIdx 1 l)) + (∑ l : Fin 512, f (runIdx 2 l))
      + (∑ l : Fin 512, f (runIdx 3 l)) + (∑ l : Fin 512, f (runIdx 4 l)) + (∑ l : Fin 512, f (runIdx 5 l))
      + (∑ l : Fin 512, f (runIdx 6 l)) + (∑ l : Fin 512, f (runIdx 7 l)) = ∑ j : Fin 4096, f j := by
  have h : ∑ j : Fin 4096, f j = ∑ c : Fin 8, ∑ l : Fin 512, f (runIdx c l) := by
    rw [← Fintype.sum_prod_type']
    refine (Fintype.sum_equiv (finProdFinEquiv (m := 8) (n := 512)) _ _ fun p => ?_).symm
    refine congrArg f (Fin.ext ?_)
    show 512 * p.1.val + p.2.val = p.2.val + 512 * p.1.val
    omega
  rw [h, Fin.sum_univ_eight, zero_add]

/-- A box is inside itself. -/
theorem inside_self (b : Fin 8) (i : Fin 4096) : inside X K b i i = 1#1 := by
  have ge : ∀ x : EReal, FloatOps.cmpf (F := Ideal) (φ := .f32) .oge x x = 1#1 := fun x => by
    show Ideal.cmp .oge x x = 1#1
    simp [Ideal.cmp]
  have le : ∀ x : EReal, FloatOps.cmpf (F := Ideal) (φ := .f32) .ole x x = 1#1 := fun x => by
    show Ideal.cmp .ole x x = 1#1
    simp [Ideal.cmp]
  have eq : ∀ k : BitVec 32, IntOp.cmpi .eq k k = 1#1 := fun k => by simp [IntOp.cmpi]
  unfold inside
  rw [ge, ge, le, le, eq]
  decide

/-- The two index counters agree exactly on the diagonal. -/
theorem offDiag_self (i : Fin 4096) : offDiag i i = 0#1 := by
  unfold offDiag
  simp [IntOp.cmpi, IntOp.addi]

theorem offDiag_ne {i j : Fin 4096} (h : j ≠ i) : offDiag i j = 1#1 := by
  unfold offDiag
  have hne : ¬ (BitVec.ofNat 32 i.val + 0#32 = BitVec.ofNat 32 j.val) := by
    intro e
    apply h
    have e' := congrArg BitVec.toNat e
    simp only [BitVec.add_zero, BitVec.toNat_ofNat] at e'
    have hi := i.isLt; have hj := j.isLt
    rw [Nat.mod_eq_of_lt (by omega), Nat.mod_eq_of_lt (by omega)] at e'
    exact Fin.ext e'.symm
  simp only [IntOp.cmpi, IntOp.addi]
  rw [show (BitVec.ofNat 32 i.val + 0#32 == BitVec.ofNat 32 j.val) = false from by simpa using hne]
  decide

/-- The off-diagonal masked term is the covered area away from the diagonal and zero on it. -/
theorem others_term (b : Fin 8) (i j : Fin 4096) :
    Scalar.select (IntOp.andi (inside X K b i j) (offDiag i j)) (area X b j) zeroW
      = if j = i then 0 else covered X K b i j := by
  by_cases h : j = i
  · subst h
    rw [if_pos rfl, offDiag_self, inside_self]
    show Scalar.select 0#1 _ _ = _
    rw [select_zero, zeroW_eq]
  · rw [if_neg h, offDiag_ne h]
    unfold covered
    rcases BitVec.eq_zero_or_eq_one (inside X K b i j) with h0 | h1
    · rw [h0]; rfl
    · rw [h1]; rfl

/-- THE LAW: with box i's area a real number, the full sum less that area is the off-diagonal sum. -/
theorem sumAll_sub_area (b : Fin 8) (i : Fin 4096) (a : ℝ) (ha : area X b i = (a : EReal)) :
    sumAll X K b i - area X b i = sumOthers X K b i := by
  have hall : sumAll X K b i = ∑ j : Fin 4096, covered X K b i j := by
    unfold sumAll runSum
    rw [zeroW_eq]
    exact runs_eq_sum (fun j => covered X K b i j)
  have hself : covered X K b i i = (a : EReal) := by
    unfold covered; rw [inside_self, select_one, ha]
  have hoth : sumOthers X K b i = ∑ j ∈ Finset.univ.erase i, covered X K b i j := by
    unfold sumOthers
    simp only [others_term]
    rw [zeroW_eq, zero_add, ← Finset.add_sum_erase Finset.univ _ (Finset.mem_univ i), if_pos rfl, zero_add]
    exact Finset.sum_congr rfl fun j hj => by rw [if_neg (Finset.ne_of_mem_erase hj)]
  rw [hall, hoth, ← Finset.add_sum_erase Finset.univ _ (Finset.mem_univ i), hself, ha]
  exact EReal.add_sub_cancel_left

/-- So the two keep decisions agree wherever box i's area is a real number. -/
theorem keepAll_eq_keepOthers (b : Fin 8) (i : Fin 4096) (a : ℝ) (ha : area X b i = (a : EReal)) :
    keepAll X K b i = keepOthers X K b i := by
  unfold keepAll keepOthers
  rw [sumAll_sub_area X K b i a ha]

/-- Finite coordinates give a real area. -/
theorem area_real (b : Fin 8) (i : Fin 4096) (hfin : ∀ k : Fin 4, ∃ r : ℝ, X (ix3 b i k) = (r : EReal)) :
    ∃ a : ℝ, area X b i = (a : EReal) := by
  obtain ⟨r0, h0⟩ := hfin 0
  obtain ⟨r1, h1⟩ := hfin 1
  obtain ⟨r2, h2⟩ := hfin 2
  obtain ⟨r3, h3⟩ := hfin 3
  refine ⟨(r2 - r0) * (r3 - r1), ?_⟩
  unfold area
  rw [h0, h1, h2, h3, ← EReal.coe_sub, ← EReal.coe_sub, ← EReal.coe_mul]

/-! ## The two words the programs turn a keep bit into -/

/-- Widened to 32 bits and compared with zero, a bit is itself. -/
theorem ne_zero_setWidth (k : BitVec 1) : IntOp.cmpi .ne (k.setWidth 32) 0#32 = k := by
  rcases BitVec.eq_zero_or_eq_one k with h | h <;> subst h <;> decide

/-- Widened to 32 bits and read as a signed integer, a bit is the number it is read as unsigned. -/
theorem toInt_setWidth (k : BitVec 1) : ((k.setWidth 32).toInt : ℝ) = ((k.toNat : ℕ) : ℝ) := by
  rcases BitVec.eq_zero_or_eq_one k with h | h <;> subst h <;> simp

end Cert.BoxFilter

end
-- ==== Proof.LibColumnForms.lean ====
/-
  Two layout operations read at an index, for a COLUMN kept after a sum along the rows' lanes (a sum with its axis kept):
  a vector of length a viewed as an a × 1 column, and an a × 1 column broadcast across b lanes.
-/
import Idealize.ShloMosaic.Lib.Pipeline.Value
import Idealize.ShloMosaic.Lib.ValueIdx

noncomputable section

namespace Cert.BoxFilter.ColumnForms

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.BoxFilter.ColumnForms

end
-- ==== Proof.PassValue.lean ====
/-
  One pass, and then the whole body, read at a row: at the ideal values the accumulator after a pass is the accumulator
  before it plus, for each row box, the sum over the pass's 512 lane boxes of the lane box's area where the lane box is
  inside the row box (four side comparisons and the class test), zero elsewhere.  Eight passes from zero give the sum
  over all 4096 boxes of the batch, run by run; the body then subtracts the row box's own area and compares with the
  allowance.  So when the five input blocks hold the batch's boxes, classes and areas where the kernel's windows put
  them, the keep bit of row r is the full-sum decision of the specification for that box.
-/
import proofs.«123981_j33380485824748_2_alg».proof.Proof.BodyPasses
import proofs.«123981_j33380485824748_2_alg».proof.Proof.Containment
import proofs.«123981_j33380485824748_2_alg».proof.Proof.LibColumnForms
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.BoxFilter.Body

open Cert.KernelIdeal Cert.KernelIdeal.Gen Cert.BoxFilter.ColumnForms

/-- The five-fold conjunction for one row box (sides `s0 … s3`, class `cl`) against one lane box (sides `a0 … a3`, class `lc`). -/
def laneMask (s0 s1 s2 s3 : EReal) (cl : BitVec 32) (a0 a1 a2 a3 : EReal) (lc : BitVec 32) : BitVec 1 :=
  IntOp.andi (IntOp.andi (IntOp.andi (IntOp.andi
    (FloatOps.cmpf (F := Ideal) (φ := .f32) .oge a0 s0)
    (FloatOps.cmpf (F := Ideal) (φ := .f32) .oge a1 s1))
    (FloatOps.cmpf (F := Ideal) (φ := .f32) .ole a2 s2))
    (FloatOps.cmpf (F := Ideal) (φ := .f32) .ole a3 s3))
    (IntOp.cmpi .eq cl lc)

/-- The lane sum of a 1024 × 512 array at row r is the sum over the 512 lanes. -/
theorem laneSum_apply (sel : FVec Ideal S1024x512 .f32) (r : Fin 1024) :
    multiReduction .add [1] S1024 sel 0x00000000#32 reduces_S1024x512_S1024 (.inl rfl) rfl (ix1 r)
      = ∑ l : Fin 512, sel (ix2 r l) := by
  refine (Ideal.multiReduction_add_single sel 0x00000000#32 reduces_S1024x512_S1024 (.inl rfl) rfl (ix1 r)).trans ?_
  show (∑ l : Fin 512, sel (reduces_S1024x512_S1024.lift (ix1 r) l)) = _
  refine Finset.sum_congr rfl fun l _ => congrArg sel (funext fun a => Fin.ext ?_)
  match a with
  | ⟨0, _⟩ => rfl
  | ⟨1, _⟩ => rfl

/-- ONE PASS at row r. -/
theorem pass_apply (s0 s1 s2 s3 : FVec Ideal S1024x1 .f32) (cl : IVec S1024x1 32)
    (l0 l1 l2 l3 : FVec Ideal S1x1x512 .f32) (lc : IVec S1x1x512 32) (la : FVec Ideal S1x1x512 .f32)
    (acc : FVec Ideal S1024x1 .f32) (r : Fin 1024) :
    pass (F := Ideal) s0 s1 s2 s3 cl l0 l1 l2 l3 lc la acc (ix2 r (0 : Fin 1))
      = acc (ix2 r (0 : Fin 1)) + ∑ l : Fin 512,
          Scalar.select (laneMask (s0 (ix2 r (0 : Fin 1))) (s1 (ix2 r (0 : Fin 1))) (s2 (ix2 r (0 : Fin 1))) (s3 (ix2 r (0 : Fin 1)))
              (cl (ix2 r (0 : Fin 1)))
              (l0 (ix3 (0 : Fin 1) (0 : Fin 1) l)) (l1 (ix3 (0 : Fin 1) (0 : Fin 1) l)) (l2 (ix3 (0 : Fin 1) (0 : Fin 1) l))
              (l3 (ix3 (0 : Fin 1) (0 : Fin 1) l)) (lc (ix3 (0 : Fin 1) (0 : Fin 1) l)))
            (la (ix3 (0 : Fin 1) (0 : Fin 1) l)) BoxFilter.zeroW := by
  unfold pass
  rw [shapeCast_self]
  show acc (ix2 r (0 : Fin 1)) + shapeCast S1024x1 _ shapeCasts_S1024_S1024x1 (ix2 r (0 : Fin 1)) = _
  rw [shapeCast_a_a1_apply]
  refine congrArg (acc (ix2 r (0 : Fin 1)) + ·) ((laneSum_apply _ r).trans (Finset.sum_congr rfl fun l _ => ?_))
  show Scalar.select (IntOp.andi (IntOp.andi (IntOp.andi (IntOp.andi
      (FloatOps.cmpf (F := Ideal) (φ := .f32) .oge (broadcastTo S1024x512 (shapeCast S1x512 l0 shapeCasts_S1x1x512_S1x512) broadcasts_S1x512_S1024x512 (ix2 r l)) (broadcastTo S1024x512 s0 broadcasts_S1024x1_S1024x512 (ix2 r l)))
      (FloatOps.cmpf (F := Ideal) (φ := .f32) .oge (broadcastTo S1024x512 (shapeCast S1x512 l1 shapeCasts_S1x1x512_S1x512) broadcasts_S1x512_S1024x512 (ix2 r l)) (broadcastTo S1024x512 s1 broadcasts_S1024x1_S1024x512 (ix2 r l))))
      (FloatOps.cmpf (F := Ideal) (φ := .f32) .ole (broadcastTo S1024x512 (shapeCast S1x512 l2 shapeCasts_S1x1x512_S1x512) broadcasts_S1x512_S1024x512 (ix2 r l)) (broadcastTo S1024x512 s2 broadcasts_S1024x1_S1024x512 (ix2 r l))))
      (FloatOps.cmpf (F := Ideal) (φ := .f32) .ole (broadcastTo S1024x512 (shapeCast S1x512 l3 shapeCasts_S1x1x512_S1x512) broadcasts_S1x512_S1024x512 (ix2 r l)) (broadcastTo S1024x512 s3 broadcasts_S1024x1_S1024x512 (ix2 r l))))
      (IntOp.cmpi .eq (broadcastTo S1024x512 cl broadcasts_S1024x1_S1024x512 (ix2 r l)) (broadcastTo S1024x512 (shapeCast S1x512 lc shapeCasts_S1x1x512_S1x512) broadcasts_S1x512_S1024x512 (ix2 r l))))
      (broadcastTo S1024x512 (shapeCast S1x512 (shapeCast S1x512 la shapeCasts_S1x1x512_S1x512) shapeCasts_S1x512_S1x512) broadcasts_S1x512_S1024x512 (ix2 r l))
      (Ideal.ofBits .f32 0x00000000#32) = _
  rw [shapeCast_self]
  simp only [broadcastTo_1b_ab_apply, broadcastTo_a1_ab_apply, shapeCast_1ab_ab_apply]
  rfl

/-! ## The row box's sides and class; the lanes of a run -/

theorem side0_apply (x0 : Vec Ideal S1x1024x4 .f32) (r : Fin 1024) :
    k0_pay5 (F := Ideal) x0 (ix2 r (0 : Fin 1)) = x0 (ix3 (0 : Fin 1) r (0 : Fin 4)) := by
  unfold k0_pay5 k0_pay4
  exact (slice2_axis1_apply 0 _ slices_S1024x4_o0_0_S1024x1 r (0 : Fin 1) (0 : Fin 4) rfl).trans
    (shapeCast_1ab_ab_apply x0 shapeCasts_S1x1024x4_S1024x4 r (0 : Fin 4))
theorem side1_apply (x0 : Vec Ideal S1x1024x4 .f32) (r : Fin 1024) :
    k0_pay6 (F := Ideal) x0 (ix2 r (0 : Fin 1)) = x0 (ix3 (0 : Fin 1) r (1 : Fin 4)) := by
  unfold k0_pay6 k0_pay4
  exact (slice2_axis1_apply 1 _ slices_S1024x4_o0_1_S1024x1 r (0 : Fin 1) (1 : Fin 4) rfl).trans
    (shapeCast_1ab_ab_apply x0 shapeCasts_S1x1024x4_S1024x4 r (1 : Fin 4))
theorem side2_apply (x0 : Vec Ideal S1x1024x4 .f32) (r : Fin 1024) :
    k0_pay7 (F := Ideal) x0 (ix2 r (0 : Fin 1)) = x0 (ix3 (0 : Fin 1) r (2 : Fin 4)) := by
  unfold k0_pay7 k0_pay4
  exact (slice2_axis1_apply 2 _ slices_S1024x4_o0_2_S1024x1 r (0 : Fin 1) (2 : Fin 4) rfl).trans
    (shapeCast_1ab_ab_apply x0 shapeCasts_S1x1024x4_S1024x4 r (2 : Fin 4))
theorem side3_apply (x0 : Vec Ideal S1x1024x4 .f32) (r : Fin 1024) :
    k0_pay8 (F := Ideal) x0 (ix2 r (0 : Fin 1)) = x0 (ix3 (0 : Fin 1) r (3 : Fin 4)) := by
  unfold k0_pay8 k0_pay4
  exact (slice2_axis1_apply 3 _ slices_S1024x4_o0_3_S1024x1 r (0 : Fin 1) (3 : Fin 4) rfl).trans
    (shapeCast_1ab_ab_apply x0 shapeCasts_S1x1024x4_S1024x4 r (3 : Fin 4))
theorem class_apply (x2 : Vec Ideal S1x1024x1 .i32) (r : Fin 1024) :
    k0_pay9 (F := Ideal) x2 (ix2 r (0 : Fin 1)) = x2 (ix3 (0 : Fin 1) r (0 : Fin 1)) := by
  unfold k0_pay9
  exact shapeCast_1ab_ab_apply x2 shapeCasts_S1x1024x1_S1024x1 r (0 : Fin 1)

/-- Lane l of run c, in row k of the transposed boxes, is box 512 c + l. -/
theorem row_ld (x1 : Vec Ideal S1x4x4096 .f32) (k : Fin 4) (c : Fin 8) (l : Fin 512) :
    View.ld (Val := Elt Ideal) x1 (rowRect k c) (ix3 (0 : Fin 1) (0 : Fin 1) l) = x1 (ix3 (0 : Fin 1) k (BoxFilter.runIdx c l)) := by
  show x1 ((rowRect k c).idx (ix3 (0 : Fin 1) (0 : Fin 1) l)) = _
  refine congrArg x1 (funext fun a => Fin.ext ?_)
  match a with
  | ⟨0, _⟩ => show 0 + 1 * 0 = 0; rfl
  | ⟨1, _⟩ => show k.val + 1 * 0 = k.val; omega
  | ⟨2, _⟩ => show 512 * c.val + 1 * l.val = 512 * c.val + l.val; omega

theorem lane_ld {e : EltTy} (x3 : Vec Ideal S1x1x4096 e) (c : Fin 8) (l : Fin 512) :
    View.ld (Val := Elt Ideal) x3 (laneRect c) (ix3 (0 : Fin 1) (0 : Fin 1) l) = x3 (ix3 (0 : Fin 1) (0 : Fin 1) (BoxFilter.runIdx c l)) := by
  show x3 ((laneRect c).idx (ix3 (0 : Fin 1) (0 : Fin 1) l)) = _
  refine congrArg x3 (funext fun a => Fin.ext ?_)
  match a with
  | ⟨0, _⟩ => show 0 + 1 * 0 = 0; rfl
  | ⟨1, _⟩ => show 0 + 1 * 0 = 0; rfl
  | ⟨2, _⟩ => show 512 * c.val + 1 * l.val = 512 * c.val + l.val; omega

theorem zero_apply (r : Fin 1024) : k0_pay10 (F := Ideal) (ix2 r (0 : Fin 1)) = BoxFilter.zeroW := by
  unfold k0_pay10
  exact congrFun (shapeCast_self _ shapeCasts_S1024x1_S1024x1) _

/-! ## The body, when the blocks hold the batch -/

section Spec

variable (X : BoxFilter.Boxes) (K : BoxFilter.Classes) (b : Fin 8) (i : Fin 4096)
  (x0 : Vec Ideal S1x1024x4 .f32) (x1 : Vec Ideal S1x4x4096 .f32) (x2 : Vec Ideal S1x1024x1 .i32)
  (x3 : Vec Ideal S1x1x4096 .i32) (x4 : Vec Ideal S1x1x4096 .f32) (r : Fin 1024)
  (h0 : ∀ k : Fin 4, x0 (ix3 (0 : Fin 1) r k) = X (ix3 b i k))
  (h1 : ∀ (k : Fin 4) (j : Fin 4096), x1 (ix3 (0 : Fin 1) k j) = X (ix3 b j k))
  (h2 : x2 (ix3 (0 : Fin 1) r (0 : Fin 1)) = K (ix2 b i))
  (h3 : ∀ j : Fin 4096, x3 (ix3 (0 : Fin 1) (0 : Fin 1) j) = K (ix2 b j))
  (h4 : ∀ j : Fin 4096, x4 (ix3 (0 : Fin 1) (0 : Fin 1) j) = BoxFilter.area X b j)

include h0 h1 h2 h3 h4

/-- Pass c adds run c's covered area of box i. -/
theorem passAt_spec (c : Fin 8) (acc : FVec Ideal S1024x1 .f32) :
    passAt (F := Ideal) x0 x1 x2 x3 x4 c acc (ix2 r (0 : Fin 1)) = acc (ix2 r (0 : Fin 1)) + BoxFilter.runSum X K b i c := by
  unfold passAt
  refine (pass_apply _ _ _ _ _ _ _ _ _ _ _ acc r).trans ?_
  refine congrArg (acc (ix2 r (0 : Fin 1)) + ·) (Finset.sum_congr rfl fun l _ => ?_)
  rw [side0_apply, side1_apply, side2_apply, side3_apply, class_apply, row_ld, row_ld, row_ld, row_ld, lane_ld, lane_ld,
    h0, h0, h0, h0, h2, h1, h1, h1, h1, h3, h4]
  rfl

/-- The accumulator after the eight passes is the full sum. -/
theorem accAll_spec : accAll (F := Ideal) x0 x1 x2 x3 x4 (ix2 r (0 : Fin 1)) = BoxFilter.sumAll X K b i := by
  unfold accAll BoxFilter.sumAll
  rw [passAt_spec X K b i x0 x1 x2 x3 x4 r h0 h1 h2 h3 h4 7, passAt_spec X K b i x0 x1 x2 x3 x4 r h0 h1 h2 h3 h4 6,
    passAt_spec X K b i x0 x1 x2 x3 x4 r h0 h1 h2 h3 h4 5, passAt_spec X K b i x0 x1 x2 x3 x4 r h0 h1 h2 h3 h4 4,
    passAt_spec X K b i x0 x1 x2 x3 x4 r h0 h1 h2 h3 h4 3, passAt_spec X K b i x0 x1 x2 x3 x4 r h0 h1 h2 h3 h4 2,
    passAt_spec X K b i x0 x1 x2 x3 x4 r h0 h1 h2 h3 h4 1, passAt_spec X K b i x0 x1 x2 x3 x4 r h0 h1 h2 h3 h4 0, zero_apply]

omit h1 h2 h3 h4 in
/-- The row box's own area. -/
theorem ownArea_spec : ownArea (F := Ideal) x0 (ix2 r (0 : Fin 1)) = BoxFilter.area X b i := by
  show (k0_pay7 (F := Ideal) x0 (ix2 r (0 : Fin 1)) - k0_pay5 (F := Ideal) x0 (ix2 r (0 : Fin 1)))
    * (k0_pay8 (F := Ideal) x0 (ix2 r (0 : Fin 1)) - k0_pay6 (F := Ideal) x0 (ix2 r (0 : Fin 1))) = _
  rw [side0_apply, side1_apply, side2_apply, side3_apply, h0, h0, h0, h0]
  rfl

/-- THE KEEP BIT of row r is the full-sum decision for box i. -/
theorem keepBit_spec :
    k0_pay1 (F := Ideal) (ownArea x0) (others x0 x1 x2 x3 x4) (ix2 r (0 : Fin 1)) = BoxFilter.keepAll X K b i := by
  show FloatOps.cmpf (F := Ideal) (φ := .f32) .ole
      (accAll (F := Ideal) x0 x1 x2 x3 x4 (ix2 r (0 : Fin 1)) - ownArea (F := Ideal) x0 (ix2 r (0 : Fin 1)))
      (BoxFilter.fracW * (ownArea (F := Ideal) x0 (ix2 r (0 : Fin 1)) + BoxFilter.epsW)) = _
  rw [accAll_spec X K b i x0 x1 x2 x3 x4 r h0 h1 h2 h3 h4, ownArea_spec X b i x0 r h0]
  rfl

/-- The keep block at row r: the bit widened to 32 bits. -/
theorem keepOut_spec (u : Fin 1) :
    keepOut (F := Ideal) x0 x1 x2 x3 x4 (ix3 (0 : Fin 1) r u) = (BoxFilter.keepAll X K b i).setWidth 32 := by
  obtain rfl : u = 0 := Subsingleton.elim _ _
  unfold keepOut k0_pay2
  refine (shapeCast_ab_1ab_apply _ shapeCasts_S1024x1_S1x1024x1 (0 : Fin 1) r (0 : Fin 1)).trans ?_
  show (k0_pay1 (F := Ideal) (ownArea x0) (others x0 x1 x2 x3 x4) (ix2 r (0 : Fin 1))).setWidth 32 = _
  rw [keepBit_spec X K b i x0 x1 x2 x3 x4 r h0 h1 h2 h3 h4]

/-- The boxes block at row r, side k: the side times the bit read as a number. -/
theorem boxesOut_spec (k : Fin 4) :
    boxesOut (F := Ideal) x0 x1 x2 x3 x4 (ix3 (0 : Fin 1) r k)
      = X (ix3 b i k) * FloatOps.sitofp (F := Ideal) .f32 ((BoxFilter.keepAll X K b i).setWidth 32) := by
  unfold boxesOut k0_pay3
  refine (shapeCast_ab_1ab_apply _ shapeCasts_S1024x4_S1x1024x4 (0 : Fin 1) r k).trans ?_
  show k0_pay4 (F := Ideal) x0 (ix2 r k)
      * broadcastTo S1024x4 (sitofp .f32 (extui 32 (k0_pay1 (F := Ideal) (ownArea x0) (others x0 x1 x2 x3 x4)) natLt_1_32))
          broadcasts_S1024x1_S1024x4 (ix2 r k) = _
  rw [broadcastTo_a1_ab_apply]
  show k0_pay4 (F := Ideal) x0 (ix2 r k)
      * FloatOps.sitofp (F := Ideal) .f32 ((k0_pay1 (F := Ideal) (ownArea x0) (others x0 x1 x2 x3 x4) (ix2 r (0 : Fin 1))).setWidth 32) = _
  rw [keepBit_spec X K b i x0 x1 x2 x3 x4 r h0 h1 h2 h3 h4]
  refine congrArg (· * _) ?_
  unfold k0_pay4
  exact (shapeCast_1ab_ab_apply x0 shapeCasts_S1x1024x4_S1024x4 r k).trans (h0 k)

end Spec

end Cert.BoxFilter.Body

end
-- ==== Proof.InputBlocks.lean ====
/-
  Each input window's block at a grid point, read at an index, as a function of the two argument arrays.

  The grid has 8 x 4 points, visited row by row: point t works on batch t / 4 and on the 1024 boxes 1024 (t % 4) + r.
  The boxes' window and the class column's window hold those 1024 rows; the three row windows (the transposed boxes,
  the class row, the area row) hold all 4096 boxes of the batch.
-/
import proofs.«123981_j33380485824748_2_alg».proof.Proof.Gen.KernelIdeal.Frame
import proofs.«123981_j33380485824748_2_alg».proof.Proof.Containment
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.BoxFilter.Blocks

open Idealize.ShloMosaic Idealize.ShloMosaic.TcCoe Idealize.ShloMosaic.ValueIdx Idealize.SL.Sem
open Cert.KernelIdeal Cert.KernelIdeal.Gen

/-! ## Where each window's block sits, decided once over the grid -/

theorem idx0 : ∀ t : Fin cfg0.N, win0_0.index t (0 : Fin 3) = t.val / 4 ∧ win0_0.index t 1 = t.val % 4 ∧ win0_0.index t 2 = 0 :=
  (by decide +kernel : ∀ t : Fin grid0.N, win0_0.index t (0 : Fin 3) = t.val / 4 ∧ win0_0.index t 1 = t.val % 4 ∧ win0_0.index t 2 = 0)
theorem idx1 : ∀ t : Fin cfg0.N, win0_1.index t (0 : Fin 3) = t.val / 4 ∧ win0_1.index t 1 = 0 ∧ win0_1.index t 2 = 0 :=
  (by decide +kernel : ∀ t : Fin grid0.N, win0_1.index t (0 : Fin 3) = t.val / 4 ∧ win0_1.index t 1 = 0 ∧ win0_1.index t 2 = 0)
theorem idx2 : ∀ t : Fin cfg0.N, win0_2.index t (0 : Fin 3) = t.val / 4 ∧ win0_2.index t 1 = t.val % 4 ∧ win0_2.index t 2 = 0 :=
  (by decide +kernel : ∀ t : Fin grid0.N, win0_2.index t (0 : Fin 3) = t.val / 4 ∧ win0_2.index t 1 = t.val % 4 ∧ win0_2.index t 2 = 0)
theorem idx3 : ∀ t : Fin cfg0.N, win0_3.index t (0 : Fin 3) = t.val / 4 ∧ win0_3.index t 1 = 0 ∧ win0_3.index t 2 = 0 :=
  (by decide +kernel : ∀ t : Fin grid0.N, win0_3.index t (0 : Fin 3) = t.val / 4 ∧ win0_3.index t 1 = 0 ∧ win0_3.index t 2 = 0)
theorem idx4 : ∀ t : Fin cfg0.N, win0_4.index t (0 : Fin 3) = t.val / 4 ∧ win0_4.index t 1 = 0 ∧ win0_4.index t 2 = 0 :=
  (by decide +kernel : ∀ t : Fin grid0.N, win0_4.index t (0 : Fin 3) = t.val / 4 ∧ win0_4.index t 1 = 0 ∧ win0_4.index t 2 = 0)

/-- The batch point t works on. -/
def batchOf (t : Fin cfg0.N) : Fin 8 := ⟨t.val / 4, by have h := t.isLt; have hN : cfg0.N = 32 := N_0; omega⟩
/-- Row r of point t's row block, as a box of the batch. -/
def rowOf (t : Fin cfg0.N) (r : Fin 1024) : Fin 4096 :=
  ⟨1024 * (t.val % 4) + r.val, by have h := r.isLt; omega⟩

variable (m : (ℓ : Loc nD τ sig) → Buf (Elt Ideal) ℓ) (c : Dev nD) (t : Fin cfg0.N)

/-- The boxes and the classes the program is launched on. -/
abbrev X : Cert.BoxFilter.Boxes := m ((c : Thread nD τ).loc main_arg0)
abbrev K : Cert.BoxFilter.Classes := m ((c : Thread nD τ).loc main_arg1)

/-! ## The two windows on the arguments themselves -/

/-- The boxes' window: row r of the block is box 1024 (t % 4) + r of batch t / 4. -/
theorem blk0 (r : Fin 1024) (k : Fin 4) :
    (iblk m c 0 t : Vec Ideal S1x1024x4 .f32) (ix3 (0 : Fin 1) r k) = X m c (ix3 (batchOf t) (rowOf t r) k) := by
  obtain ⟨h0, h1, h2⟩ := idx0 t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1 + 1 * 0 = t.val / 4; rw [h0]; omega
  | ⟨1, _⟩ => show win0_0.index t 1 * 1024 + 1 * r.val = 1024 * (t.val % 4) + r.val; rw [h1]; omega
  | ⟨2, _⟩ => show win0_0.index t 2 * 4 + 1 * k.val = k.val; rw [h2]; omega

/-! ## What the host wrote into the other three arrays before the region -/

/-- The class column is the classes, reshaped. -/
theorem V_v14 : (V m c main_v14 : S8x4096x1.Idx → BitVec 32)
    = shapeCast S8x4096x1 (K m c) shapeCasts_S8x4096_S8x4096x1 := by
  show StableHlo.after hostOps0 (fun b => m (c, b)) (Proc.devRef .tc main_v14) = _
  after_results
  rfl

/-- The class column's window: row r of the block is the class of box 1024 (t % 4) + r of batch t / 4. -/
theorem blk2 (r : Fin 1024) :
    (iblk m c 2 t : S1x1024x1.Idx → BitVec 32) (ix3 (0 : Fin 1) r (0 : Fin 1)) = K m c (ix2 (batchOf t) (rowOf t r)) := by
  obtain ⟨h0, h1, h2⟩ := idx2 t
  unfold iblk
  rw [View.read_apply]
  show V m c main_v14 _ = _
  rw [V_v14]
  refine shapeCast_apply (K m c) shapeCasts_S8x4096_S8x4096x1 _ (ix2 (batchOf t) (rowOf t r)) ?_
  rw [Shape.rowMajor_val_two, Shape.rowMajor_val_three]
  have hr := r.isLt
  show (t.val / 4) * 4096 + (1024 * (t.val % 4) + r.val)
    = ((win0_2.index t 0 * 1 + 1 * 0) * 4096 + (win0_2.index t 1 * 1024 + 1 * r.val)) * 1 + (win0_2.index t 2 * 1 + 1 * 0)
  rw [h0, h1, h2]; omega

/-- The transposed boxes. -/
theorem V_v0 : (V m c main_v0 : S8x4x4096.Idx → EReal)
    = transpose S8x4x4096 [0, 2, 1] (X m c) transposes_S8x4096x4_S8x4x4096_0_2_1 := by
  show StableHlo.after hostOps0 (fun b => m (c, b)) (Proc.devRef .tc main_v0) = _
  after_results

/-- The class row is the classes, with a unit axis in the middle. -/
theorem V_v13 : (V m c main_v13 : S8x1x4096.Idx → BitVec 32)
    = broadcastInDim S8x1x4096 ![0, 2] bcast_S8x4096_S8x1x4096_0_2 (K m c) := by
  show StableHlo.after hostOps0 (fun b => m (c, b)) (Proc.devRef .tc main_v13) = _
  after_results

/-- The transposed boxes' window: row k of the block is coordinate k of every box of batch t / 4. -/
theorem blk1 (k : Fin 4) (j : Fin 4096) :
    (iblk m c 1 t : Vec Ideal S1x4x4096 .f32) (ix3 (0 : Fin 1) k j) = X m c (ix3 (batchOf t) j k) := by
  obtain ⟨h0, h1, h2⟩ := idx1 t
  unfold iblk
  rw [View.read_apply]
  show V m c main_v0 _ = _
  rw [V_v0, ← transpose_ix3_021_apply (X m c) transposes_S8x4096x4_S8x4x4096_0_2_1 (batchOf t) k j]
  refine congrArg _ (funext fun a => Fin.ext ?_)
  match a with
  | ⟨0, _⟩ => show win0_1.index t 0 * 1 + 1 * 0 = t.val / 4; rw [h0]; omega
  | ⟨1, _⟩ => show win0_1.index t 1 * 4 + 1 * k.val = k.val; rw [h1]; omega
  | ⟨2, _⟩ => show win0_1.index t 2 * 4096 + 1 * j.val = j.val; rw [h2]; omega

/-- The class row's window: entry j of the block is the class of box j of batch t / 4. -/
theorem blk3 (j : Fin 4096) :
    (iblk m c 3 t : S1x1x4096.Idx → BitVec 32) (ix3 (0 : Fin 1) (0 : Fin 1) j) = K m c (ix2 (batchOf t) j) := by
  obtain ⟨h0, h1, h2⟩ := idx3 t
  unfold iblk
  rw [View.read_apply]
  show V m c main_v13 _ = _
  rw [V_v13]
  refine broadcastInDim_apply _ bcast_S8x4096_S8x1x4096_0_2 (K m c) _ (ix2 (batchOf t) j) fun a => ?_
  match a with
  | ⟨0, _⟩ =>
    show t.val / 4 = if (8 : Nat) = 1 then 0 else win0_3.index t 0 * 1 + 1 * 0
    rw [if_neg (by decide), h0]; omega
  | ⟨1, _⟩ =>
    show j.val = if (4096 : Nat) = 1 then 0 else win0_3.index t 2 * 4096 + 1 * j.val
    rw [if_neg (by decide), h2]; omega

/-! ## The area row -/

/-- A coordinate plane as the host extracts it: a row of the transposed boxes, sliced out and flattened. -/
abbrev plane (Xb : Cert.BoxFilter.Boxes) (off : Fin 3 → Nat) (hs : S8x4x4096.Slices off S8x1x4096) : FVec Ideal S8x4096 .f32 :=
  shapeCast S8x4096 (extractStridedSlice S8x1x4096 off
    (transpose S8x4x4096 [0, 2, 1] Xb transposes_S8x4096x4_S8x4x4096_0_2_1) hs) shapeCasts_S8x1x4096_S8x4096

/-- The plane sliced at row k is coordinate k of the boxes. -/
theorem plane_at (Xb : Cert.BoxFilter.Boxes) (k : Fin 4) (off : Fin 3 → Nat) (hoff : off = ![0, k.val, 0])
    (hs : S8x4x4096.Slices off S8x1x4096) (b : Fin 8) (j : Fin 4096) :
    plane Xb off hs (ix2 b j) = Xb (ix3 b j k) := by
  subst hoff
  unfold plane
  rw [shapeCast_apply _ shapeCasts_S8x1x4096_S8x4096 (ix2 b j) (ix3 b (0 : Fin 1) j)
      (by rw [Shape.rowMajor_val_three, Shape.rowMajor_val_two]
          show (b.val * 1 + 0) * 4096 + j.val = b.val * 4096 + j.val; omega),
    extractStridedSlice_apply _ _ hs (ix3 b (0 : Fin 1) j) (ix3 b k j) (fun a => match a with
      | ⟨0, _⟩ => by show b.val = 0 + b.val; omega
      | ⟨1, _⟩ => by show k.val = k.val + 0; omega
      | ⟨2, _⟩ => by show j.val = 0 + j.val; omega),
    transpose_ix3_021_apply]

/-- The area row is (x2 - x1)(y2 - y1) of the extracted planes, with a unit axis in the middle. -/
theorem V_v12 : (V m c main_v12 : S8x1x4096.Idx → EReal)
    = broadcastInDim S8x1x4096 ![0, 2] bcast_S8x4096_S8x1x4096_0_2
        (mulf (subf (plane (X m c) ![0, 2, 0] slices_S8x4x4096_S8x1x4096_0_2_0) (plane (X m c) ![0, 0, 0] slices_S8x4x4096_S8x1x4096_0_0_0))
          (subf (plane (X m c) ![0, 3, 0] slices_S8x4x4096_S8x1x4096_0_3_0) (plane (X m c) ![0, 1, 0] slices_S8x4x4096_S8x1x4096_0_1_0))) := by
  show StableHlo.after hostOps0 (fun b => m (c, b)) (Proc.devRef .tc main_v12) = _
  after_results
  rfl

/-- The area row's window: entry j of the block is the area of box j of batch t / 4. -/
theorem blk4 (j : Fin 4096) :
    (iblk m c 4 t : Vec Ideal S1x1x4096 .f32) (ix3 (0 : Fin 1) (0 : Fin 1) j) = Cert.BoxFilter.area (X m c) (batchOf t) j := by
  obtain ⟨h0, h1, h2⟩ := idx4 t
  unfold iblk
  rw [View.read_apply]
  show V m c main_v12 _ = _
  rw [V_v12]
  refine (broadcastInDim_apply _ bcast_S8x4096_S8x1x4096_0_2 _ _ (ix2 (batchOf t) j) fun a => ?_).trans ?_
  · match a with
    | ⟨0, _⟩ =>
      show t.val / 4 = if (8 : Nat) = 1 then 0 else win0_4.index t 0 * 1 + 1 * 0
      rw [if_neg (by decide), h0]; omega
    | ⟨1, _⟩ =>
      show j.val = if (4096 : Nat) = 1 then 0 else win0_4.index t 2 * 4096 + 1 * j.val
      rw [if_neg (by decide), h2]; omega
  · show (plane (X m c) ![0, 2, 0] slices_S8x4x4096_S8x1x4096_0_2_0 (ix2 (batchOf t) j)
          - plane (X m c) ![0, 0, 0] slices_S8x4x4096_S8x1x4096_0_0_0 (ix2 (batchOf t) j))
        * (plane (X m c) ![0, 3, 0] slices_S8x4x4096_S8x1x4096_0_3_0 (ix2 (batchOf t) j)
          - plane (X m c) ![0, 1, 0] slices_S8x4x4096_S8x1x4096_0_1_0 (ix2 (batchOf t) j)) = _
    rw [plane_at (X m c) 2 ![0, 2, 0] rfl, plane_at (X m c) 0 ![0, 0, 0] rfl, plane_at (X m c) 3 ![0, 3, 0] rfl,
      plane_at (X m c) 1 ![0, 1, 0] rfl]
    rfl

end Cert.BoxFilter.Blocks

end
-- ==== Proof.KernelArrays.lean ====
/-
  From blocks to arrays: what the two result arrays of the kernel's region hold after the run.

  Grid point t works on batch t / 4 and on row block t % 4.  Its boxes block and its keep block are written back to rows
  1024 (t % 4) … 1024 (t % 4) + 1023 of batch t / 4 of the two result arrays; the 32 points' blocks tile the arrays.  The
  body's two output blocks at a row are the specification's values for that box (the input blocks hold the batch's boxes,
  classes and areas where the windows put them), so the arrays are those values everywhere: the keep word of box i of
  batch b is the full-sum decision widened to 32 bits, and the boxes are the input boxes scaled by that word as a number.
-/
import proofs.«123981_j33380485824748_2_alg».proof.Proof.PassValue
import proofs.«123981_j33380485824748_2_alg».proof.Proof.InputBlocks

set_option maxRecDepth 16384

noncomputable section

open Idealize.ShloMosaic Idealize.ShloMosaic.TcCoe Idealize.SL.Sem Idealize.ShloMosaic.ValueIdx
open Idealize.ShloMosaic.Pipeline (Dat)

namespace Cert.BoxFilter.Arrays

open Cert.KernelIdeal Cert.KernelIdeal.Gen Cert.BoxFilter.Blocks Cert.BoxFilter.Body

theorem idx5 : ∀ t : Fin cfg0.N, win0_5.index t (0 : Fin 3) = t.val / 4 ∧ win0_5.index t 1 = t.val % 4 ∧ win0_5.index t 2 = 0 :=
  (by decide +kernel : ∀ t : Fin grid0.N, win0_5.index t (0 : Fin 3) = t.val / 4 ∧ win0_5.index t 1 = t.val % 4 ∧ win0_5.index t 2 = 0)
theorem idx6 : ∀ t : Fin cfg0.N, win0_6.index t (0 : Fin 3) = t.val / 4 ∧ win0_6.index t 1 = t.val % 4 ∧ win0_6.index t 2 = 0 :=
  (by decide +kernel : ∀ t : Fin grid0.N, win0_6.index t (0 : Fin 3) = t.val / 4 ∧ win0_6.index t 1 = t.val % 4 ∧ win0_6.index t 2 = 0)

variable (m : (ℓ : Loc nD τ sig) → Buf (Elt Ideal) ℓ) (c : Dev nD)

/-- The keep word of box i of batch b. -/
def keepWord (b : Fin 8) (i : Fin 4096) : BitVec 32 := (BoxFilter.keepAll (X m c) (K m c) b i).setWidth 32

/-- The keep array: at (b, i, ·) the keep word of box i of batch b. -/
def keepWords : S8x4096x1.Idx → BitVec 32 :=
  fun idx => keepWord m c ⟨(idx 0).val, (idx 0).isLt⟩ ⟨(idx 1).val, (idx 1).isLt⟩

/-- The kept boxes: at (b, i, k) side k of box i of batch b times its keep word read as a number. -/
def keptBoxes : S8x4096x4.Idx → EReal :=
  fun idx => X m c idx * FloatOps.sitofp (F := Ideal) .f32 (keepWord m c ⟨(idx 0).val, (idx 0).isLt⟩ ⟨(idx 1).val, (idx 1).isLt⟩)

theorem keepWords_at (idx : S8x4096x1.Idx) (b : Fin 8) (i : Fin 4096) (hb : (idx 0).val = b.val) (hi : (idx 1).val = i.val) :
    keepWords m c idx = keepWord m c b i := by
  unfold keepWords
  exact congrArg₂ (keepWord m c) (Fin.ext hb) (Fin.ext hi)

theorem keptBoxes_at (idx : S8x4096x4.Idx) (b : Fin 8) (i : Fin 4096) (k : Fin 4) (hb : (idx 0).val = b.val)
    (hi : (idx 1).val = i.val) (hk : (idx 2).val = k.val) :
    keptBoxes m c idx = X m c (ix3 b i k) * FloatOps.sitofp (F := Ideal) .f32 (keepWord m c b i) := by
  unfold keptBoxes
  have e : idx = ix3 b i k := funext fun a => Fin.ext (by
    match a with
    | ⟨0, _⟩ => exact hb
    | ⟨1, _⟩ => exact hi
    | ⟨2, _⟩ => exact hk)
  rw [congrArg₂ (keepWord m c) (Fin.ext hb : (⟨(idx 0).val, (idx 0).isLt⟩ : Fin 8) = b)
    (Fin.ext hi : (⟨(idx 1).val, (idx 1).isLt⟩ : Fin 4096) = i), e]

/-! ## What each point writes back -/

/-- Point t writes back block t of the keep array. -/
theorem keep_flushed (t : Fin cfg0.N) :
    (dats m 0 c).flushed 6 t = ((cfg0.win 6).blk t).view.read (Elt Ideal) (keepWords m c) := by
  show (cfg0.win 6).cut (grid0.coords t) ((dats m 0 c).after 6 t) = _
  rw [after0_6]
  unfold outsAt0
  dsimp only
  rw [keep_found]
  obtain ⟨h0, h1, h2⟩ := idx6 t
  show (keepOut (F := Ideal) (iblk m c 0 t) (iblk m c 1 t) (iblk m c 2 t) (iblk m c 3 t) (iblk m c 4 t) : S1x1024x1.Idx → BitVec 32)
    = (((cfg0.win 6).blk t).view.read (Elt Ideal) (keepWords m c) : S1x1024x1.Idx → BitVec 32)
  funext y
  obtain ⟨a, r, u, rfl⟩ : ∃ (a : Fin 1) (r : Fin 1024) (u : Fin 1), y = ix3 a r u := ⟨y 0, y 1, y 2, eq_ix3 y⟩
  obtain rfl : a = 0 := Subsingleton.elim _ _
  refine (keepOut_spec (X m c) (K m c) (batchOf t) (rowOf t r) (iblk m c 0 t) (iblk m c 1 t) (iblk m c 2 t) (iblk m c 3 t)
    (iblk m c 4 t) r (blk0 m c t r) (blk1 m c t) (blk2 m c t r) (blk3 m c t) (blk4 m c t) u).trans ?_
  rw [View.read_apply]
  refine (keepWords_at m c _ (batchOf t) (rowOf t r) ?_ ?_).symm
  · show win0_6.index t 0 * 1 + 1 * 0 = t.val / 4; rw [h0]; omega
  · show win0_6.index t 1 * 1024 + 1 * r.val = 1024 * (t.val % 4) + r.val; rw [h1]; omega

/-- Point t writes back block t of the kept boxes. -/
theorem boxes_flushed (t : Fin cfg0.N) :
    (dats m 0 c).flushed 5 t = ((cfg0.win 5).blk t).view.read (Elt Ideal) (keptBoxes m c) := by
  show (cfg0.win 5).cut (grid0.coords t) ((dats m 0 c).after 5 t) = _
  rw [after0_5]
  unfold outsAt0
  dsimp only
  rw [boxes_found]
  obtain ⟨h0, h1, h2⟩ := idx5 t
  show (boxesOut (F := Ideal) (iblk m c 0 t) (iblk m c 1 t) (iblk m c 2 t) (iblk m c 3 t) (iblk m c 4 t) : S1x1024x4.Idx → EReal)
    = (((cfg0.win 5).blk t).view.read (Elt Ideal) (keptBoxes m c) : S1x1024x4.Idx → EReal)
  funext y
  obtain ⟨a, r, k, rfl⟩ : ∃ (a : Fin 1) (r : Fin 1024) (k : Fin 4), y = ix3 a r k := ⟨y 0, y 1, y 2, eq_ix3 y⟩
  obtain rfl : a = 0 := Subsingleton.elim _ _
  refine (boxesOut_spec (X m c) (K m c) (batchOf t) (rowOf t r) (iblk m c 0 t) (iblk m c 1 t) (iblk m c 2 t) (iblk m c 3 t)
    (iblk m c 4 t) r (blk0 m c t r) (blk1 m c t) (blk2 m c t r) (blk3 m c t) (blk4 m c t) k).trans ?_
  rw [View.read_apply]
  refine (keptBoxes_at m c _ (batchOf t) (rowOf t r) k ?_ ?_ ?_).symm
  · show win0_5.index t 0 * 1 + 1 * 0 = t.val / 4; rw [h0]; omega
  · show win0_5.index t 1 * 1024 + 1 * r.val = 1024 * (t.val % 4) + r.val; rw [h1]; omega
  · show win0_5.index t 2 * 4 + 1 * k.val = k.val; rw [h2]; omega

/-! ## The blocks tile the arrays -/

/-- The point whose blocks hold box i of batch b. -/
def pointOf (b i : Nat) (hb : b < 8) (hi : i < 4096) : Fin cfg0.N :=
  ⟨4 * b + i / 1024, by rw [show cfg0.N = 32 from N_0]; omega⟩

theorem keep_cover (i : S8x4096x1.Idx) : ∃ t : Fin cfg0.N, (cfg0.win 6).flush t = true ∧ i ∈ ((cfg0.win 6).blk t).view.set := by
  have hi0 : (i 0).val < 8 := (i 0).isLt
  have hi1 : (i 1).val < 4096 := (i 1).isLt
  have hi2 : (i 2).val < 1 := (i 2).isLt
  refine ⟨pointOf (i 0).val (i 1).val hi0 hi1, flush0_6 _, ?_⟩
  obtain ⟨h0, h1, h2⟩ := idx6 (pointOf (i 0).val (i 1).val hi0 hi1)
  have ht : (pointOf (i 0).val (i 1).val hi0 hi1).val = 4 * (i 0).val + (i 1).val / 1024 := rfl
  show i ∈ ((View.whole main_v15_1).slice (win0_6.rect (pointOf (i 0).val (i 1).val hi0 hi1))).set
  rw [View.set_slice_whole, Rect.mem_set_unit]
  intro a
  match a with
  | ⟨0, _⟩ =>
    show win0_6.index (pointOf (i 0).val (i 1).val hi0 hi1) 0 * 1 ≤ (i 0).val
      ∧ (i 0).val < win0_6.index (pointOf (i 0).val (i 1).val hi0 hi1) 0 * 1 + 1
    rw [h0, ht]; omega
  | ⟨1, _⟩ =>
    show win0_6.index (pointOf (i 0).val (i 1).val hi0 hi1) 1 * 1024 ≤ (i 1).val
      ∧ (i 1).val < win0_6.index (pointOf (i 0).val (i 1).val hi0 hi1) 1 * 1024 + 1024
    rw [h1, ht]; omega
  | ⟨2, _⟩ =>
    show win0_6.index (pointOf (i 0).val (i 1).val hi0 hi1) 2 * 1 ≤ (i 2).val
      ∧ (i 2).val < win0_6.index (pointOf (i 0).val (i 1).val hi0 hi1) 2 * 1 + 1
    rw [h2]; omega

theorem boxes_cover (i : S8x4096x4.Idx) : ∃ t : Fin cfg0.N, (cfg0.win 5).flush t = true ∧ i ∈ ((cfg0.win 5).blk t).view.set := by
  have hi0 : (i 0).val < 8 := (i 0).isLt
  have hi1 : (i 1).val < 4096 := (i 1).isLt
  have hi2 : (i 2).val < 4 := (i 2).isLt
  refine ⟨pointOf (i 0).val (i 1).val hi0 hi1, flush0_5 _, ?_⟩
  obtain ⟨h0, h1, h2⟩ := idx5 (pointOf (i 0).val (i 1).val hi0 hi1)
  have ht : (pointOf (i 0).val (i 1).val hi0 hi1).val = 4 * (i 0).val + (i 1).val / 1024 := rfl
  show i ∈ ((View.whole main_v15_0).slice (win0_5.rect (pointOf (i 0).val (i 1).val hi0 hi1))).set
  rw [View.set_slice_whole, Rect.mem_set_unit]
  intro a
  match a with
  | ⟨0, _⟩ =>
    show win0_5.index (pointOf (i 0).val (i 1).val hi0 hi1) 0 * 1 ≤ (i 0).val
      ∧ (i 0).val < win0_5.index (pointOf (i 0).val (i 1).val hi0 hi1) 0 * 1 + 1
    rw [h0, ht]; omega
  | ⟨1, _⟩ =>
    show win0_5.index (pointOf (i 0).val (i 1).val hi0 hi1) 1 * 1024 ≤ (i 1).val
      ∧ (i 1).val < win0_5.index (pointOf (i 0).val (i 1).val hi0 hi1) 1 * 1024 + 1024
    rw [h1, ht]; omega
  | ⟨2, _⟩ =>
    show win0_5.index (pointOf (i 0).val (i 1).val hi0 hi1) 2 * 4 ≤ (i 2).val
      ∧ (i 2).val < win0_5.index (pointOf (i 0).val (i 1).val hi0 hi1) 2 * 4 + 4
    rw [h2]; omega

/-! ## The arrays after the run -/

theorem keep_final : (dats m 0 c).arrAt 6 cfg0.N = keepWords m c :=
  (dats m 0 c).arrAt_eq_of_cover 6 (keepWords m c) (fun t _ => keep_flushed m c t) (keep_cover)

theorem boxes_final : (dats m 0 c).arrAt 5 cfg0.N = keptBoxes m c :=
  (dats m 0 c).arrAt_eq_of_cover 5 (keptBoxes m c) (fun t _ => boxes_flushed m c t) (boxes_cover)

end Cert.BoxFilter.Arrays

end
-- ==== Proof.HostTail.lean ====
/-
  The second result, after the host operations that follow the region: the stored keep word of box i of batch b,
  flattened from a column to a row and compared with zero.
-/
import proofs.«123981_j33380485824748_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.BoxFilter.Tail

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ) (c : Dev nD)

/-- The host tail as one term of the region's second output array G: the column flattened, compared with the zero
    word broadcast. -/
theorem tail_eq (G : S8x4096x1.Idx → BitVec 32) (hG : (dats m 0 c).arrAt 6 cfg0.N = G) :
    (Pipeline.afterTail₀ cfgs (dats m) 0 (V0 m) [hostOps1] c main_v19 : S8x4096.Idx → BitVec 1)
      = cmpi .ne (shapeCast S8x4096 G shapeCasts_S8x4096x1_S8x4096)
          (broadcastInDim S8x4096 ![] bcast_S_S8x4096 (constantI S_ 32 0#32)) := by
  have hw : Pipeline.withArrays (cfgs 0).spec c (V0 m c) (fun w => (dats m 0 c).arrAt w (cfgs 0).N)
      (Proc.devRef .tc main_v15_1) = G :=
    (Pipeline.withArrays_arr spec0 launch0.win.arr_inj c _ _ 6).trans hG
  unfold Pipeline.afterTail₀
  show StableHlo.after hostOps1 _ (Proc.devRef .tc main_v19) = _
  after_results
  rw [hw]
  rfl

/-- The second result at (b, i): the stored keep word of box i of batch b, compared with zero. -/
theorem keep_tail (G : S8x4096x1.Idx → BitVec 32) (hG : (dats m 0 c).arrAt 6 cfg0.N = G) (b : Fin 8) (i : Fin 4096) :
    (Pipeline.afterTail₀ cfgs (dats m) 0 (V0 m) [hostOps1] c main_v19 : S8x4096.Idx → BitVec 1) (ix2 b i)
      = IntOp.cmpi .ne (G (ix3 b i (0 : Fin 1))) 0#32 := by
  rw [tail_eq m c G hG]
  show IntOp.cmpi .ne (shapeCast S8x4096 G shapeCasts_S8x4096x1_S8x4096 (ix2 b i)) 0#32 = _
  rw [shapeCast_apply G shapeCasts_S8x4096x1_S8x4096 (ix2 b i) (ix3 b i (0 : Fin 1))
    (by rw [Shape.rowMajor_val_three, Shape.rowMajor_val_two]
        show (b.val * 4096 + i.val) * 1 + 0 = b.val * 4096 + i.val; omega)]

end Cert.BoxFilter.Tail

end
-- ==== Proof.ReferenceSide.lean ====
/-
  The reference's two results, read at an index, are the specification: its keep bit at (b, i) is the off-diagonal
  decision of box i, and its boxes at (b, i, k) are the input coordinate times that bit as a number.
-/
import proofs.«123981_j33380485824748_2_alg».proof.Proof.Gen.ReferenceIdeal.Read
import proofs.«123981_j33380485824748_2_alg».proof.Proof.Containment
import Idealize.ShloMosaic.Lib.ValueIdx

noncomputable section

open scoped BigOperators

namespace Cert.BoxFilter.Ref

open Idealize.ShloMosaic Idealize.ShloMosaic.ValueIdx
open Cert.ReferenceIdeal Cert.ReferenceIdeal.Gen Cert.ReferenceIdeal.Read

variable (x0 : (⟨S8x4096x4, .f32⟩ : BufTy).Contents (Elt Ideal)) (x1 : (⟨S8x4096, .i32⟩ : BufTy).Contents (Elt Ideal))

/-! ## The four coordinate planes: plane k at (b, j) is coordinate k of box j of batch b -/

theorem plane0_at (b : Fin 8) (j : Fin 4096) : val_main_v1 (F := Ideal) x0 (ix2 b j) = x0 (ix3 b j 0) := by
  rw [val_main_v1_apply, val_main_v0_apply]
  refine congrArg x0 (funext fun a => Fin.ext ?_)
  have hb := b.isLt; have hj := j.isLt
  match a with
  | ⟨0, _⟩ => show (b.val * 4096 + j.val) / 4096 = b.val; omega
  | ⟨1, _⟩ => show (b.val * 4096 + j.val) / 1 % 4096 = j.val; omega
  | ⟨2, _⟩ => rfl

theorem plane1_at (b : Fin 8) (j : Fin 4096) : val_main_v3 (F := Ideal) x0 (ix2 b j) = x0 (ix3 b j 1) := by
  rw [val_main_v3_apply, val_main_v2_apply]
  refine congrArg x0 (funext fun a => Fin.ext ?_)
  have hb := b.isLt; have hj := j.isLt
  match a with
  | ⟨0, _⟩ => show (b.val * 4096 + j.val) / 4096 = b.val; omega
  | ⟨1, _⟩ => show (b.val * 4096 + j.val) / 1 % 4096 = j.val; omega
  | ⟨2, _⟩ => rfl

theorem plane2_at (b : Fin 8) (j : Fin 4096) : val_main_v5 (F := Ideal) x0 (ix2 b j) = x0 (ix3 b j 2) := by
  rw [val_main_v5_apply, val_main_v4_apply]
  refine congrArg x0 (funext fun a => Fin.ext ?_)
  have hb := b.isLt; have hj := j.isLt
  match a with
  | ⟨0, _⟩ => show (b.val * 4096 + j.val) / 4096 = b.val; omega
  | ⟨1, _⟩ => show (b.val * 4096 + j.val) / 1 % 4096 = j.val; omega
  | ⟨2, _⟩ => rfl

theorem plane3_at (b : Fin 8) (j : Fin 4096) : val_main_v7 (F := Ideal) x0 (ix2 b j) = x0 (ix3 b j 3) := by
  rw [val_main_v7_apply, val_main_v6_apply]
  refine congrArg x0 (funext fun a => Fin.ext ?_)
  have hb := b.isLt; have hj := j.isLt
  match a with
  | ⟨0, _⟩ => show (b.val * 4096 + j.val) / 4096 = b.val; omega
  | ⟨1, _⟩ => show (b.val * 4096 + j.val) / 1 % 4096 = j.val; omega
  | ⟨2, _⟩ => rfl

/-! ## The area plane -/

theorem area_at (b : Fin 8) (j : Fin 4096) : val_main_v10 (F := Ideal) x0 (ix2 b j) = area x0 b j := by
  rw [val_main_v10_apply, val_main_v8_apply, val_main_v9_apply, plane0_at, plane1_at, plane2_at, plane3_at]
  rfl

/-! ## The pairwise planes at (b, i, j): a column plane reads box j, a row plane box i -/

theorem col0_at (b : Fin 8) (i j : Fin 4096) : val_main_v13 (F := Ideal) x0 (ix3 b i j) = x0 (ix3 b j 0) := by
  rw [val_main_v13_apply, val_main_v11_apply, ← plane0_at x0 b j]
  exact congrArg _ (funext fun a => Fin.ext (by match a with | ⟨0, _⟩ => rfl | ⟨1, _⟩ => rfl))

theorem row0_at (b : Fin 8) (i j : Fin 4096) : val_main_v14 (F := Ideal) x0 (ix3 b i j) = x0 (ix3 b i 0) := by
  rw [val_main_v14_apply, val_main_v12_apply, ← plane0_at x0 b i]
  exact congrArg _ (funext fun a => Fin.ext (by match a with | ⟨0, _⟩ => rfl | ⟨1, _⟩ => rfl))

theorem col1_at (b : Fin 8) (i j : Fin 4096) : val_main_v18 (F := Ideal) x0 (ix3 b i j) = x0 (ix3 b j 1) := by
  rw [val_main_v18_apply, val_main_v16_apply, ← plane1_at x0 b j]
  exact congrArg _ (funext fun a => Fin.ext (by match a with | ⟨0, _⟩ => rfl | ⟨1, _⟩ => rfl))

theorem row1_at (b : Fin 8) (i j : Fin 4096) : val_main_v19 (F := Ideal) x0 (ix3 b i j) = x0 (ix3 b i 1) := by
  rw [val_main_v19_apply, val_main_v17_apply, ← plane1_at x0 b i]
  exact congrArg _ (funext fun a => Fin.ext (by match a with | ⟨0, _⟩ => rfl | ⟨1, _⟩ => rfl))

theorem col2_at (b : Fin 8) (i j : Fin 4096) : val_main_v24 (F := Ideal) x0 (ix3 b i j) = x0 (ix3 b j 2) := by
  rw [val_main_v24_apply, val_main_v22_apply, ← plane2_at x0 b j]
  exact congrArg _ (funext fun a => Fin.ext (by match a with | ⟨0, _⟩ => rfl | ⟨1, _⟩ => rfl))

theorem row2_at (b : Fin 8) (i j : Fin 4096) : val_main_v25 (F := Ideal) x0 (ix3 b i j) = x0 (ix3 b i 2) := by
  rw [val_main_v25_apply, val_main_v23_apply, ← plane2_at x0 b i]
  exact congrArg _ (funext fun a => Fin.ext (by match a with | ⟨0, _⟩ => rfl | ⟨1, _⟩ => rfl))

theorem col3_at (b : Fin 8) (i j : Fin 4096) : val_main_v30 (F := Ideal) x0 (ix3 b i j) = x0 (ix3 b j 3) := by
  rw [val_main_v30_apply, val_main_v28_apply, ← plane3_at x0 b j]
  exact congrArg _ (funext fun a => Fin.ext (by match a with | ⟨0, _⟩ => rfl | ⟨1, _⟩ => rfl))

theorem row3_at (b : Fin 8) (i j : Fin 4096) : val_main_v31 (F := Ideal) x0 (ix3 b i j) = x0 (ix3 b i 3) := by
  rw [val_main_v31_apply, val_main_v29_apply, ← plane3_at x0 b i]
  exact congrArg _ (funext fun a => Fin.ext (by match a with | ⟨0, _⟩ => rfl | ⟨1, _⟩ => rfl))

theorem classRow_at (b : Fin 8) (i j : Fin 4096) : val_main_v36 (F := Ideal) x1 (ix3 b i j) = x1 (ix2 b i) := by
  rw [val_main_v36_apply, val_main_v34_apply]
  exact congrArg x1 (funext fun a => Fin.ext (by match a with | ⟨0, _⟩ => rfl | ⟨1, _⟩ => rfl))

theorem classCol_at (b : Fin 8) (i j : Fin 4096) : val_main_v37 (F := Ideal) x1 (ix3 b i j) = x1 (ix2 b j) := by
  rw [val_main_v37_apply, val_main_v35_apply]
  exact congrArg x1 (funext fun a => Fin.ext (by match a with | ⟨0, _⟩ => rfl | ⟨1, _⟩ => rfl))

theorem areaCol_at (b : Fin 8) (i j : Fin 4096) : val_main_call0_v0 (F := Ideal) x0 (ix3 b i j) = area x0 b j := by
  rw [val_main_call0_v0_apply, val_main_v49_apply, ← area_at x0 b j]
  exact congrArg _ (funext fun a => Fin.ext (by match a with | ⟨0, _⟩ => rfl | ⟨1, _⟩ => rfl))

/-! ## The masks -/

theorem inside_at (b : Fin 8) (i j : Fin 4096) : val_main_v46 (F := Ideal) x0 x1 (ix3 b i j) = inside x0 x1 b i j := by
  rw [val_main_v46_apply, val_main_v33_apply, val_main_v27_apply, val_main_v21_apply, val_main_v15_apply,
    val_main_v20_apply, val_main_v26_apply, val_main_v32_apply, val_main_v38_apply,
    col0_at, row0_at, col1_at, row1_at, col2_at, row2_at, col3_at, row3_at, classRow_at, classCol_at]
  rfl

theorem offDiag_at (b : Fin 8) (i j : Fin 4096) : val_main_v47 (F := Ideal) (ix3 b i j) = offDiag i j := by
  rw [val_main_v47_apply, val_main_v45_apply, val_main_v44_apply, val_main_v43_apply, val_main_v42_apply,
    val_main_v39_apply, val_main_v40_apply, val_main_v41_apply, val_main_c_apply]
  rfl

/-! ## The masked sum, the allowance, and the two results -/

theorem term_at (b : Fin 8) (i j : Fin 4096) :
    val_main_v50 (F := Ideal) x0 x1 (ix3 b i j)
      = Scalar.select (IntOp.andi (inside x0 x1 b i j) (offDiag i j)) (area x0 b j) zeroW := by
  rw [val_main_v50_apply, val_main_v48_apply, inside_at, offDiag_at, areaCol_at, val_main_call0_v1_apply,
    val_main_cst_apply]
  rfl

theorem sum_at (b : Fin 8) (i : Fin 4096) : val_main_v51 (F := Ideal) x0 x1 (ix2 b i) = sumOthers x0 x1 b i := by
  rw [val_main_v51_apply, val_main_cst_0_apply]
  unfold sumOthers
  refine congrArg (_ + ·) (Finset.sum_congr rfl fun j _ => ?_)
  rw [← term_at x0 x1 b i j]
  exact congrArg _ (funext fun a => Fin.ext (by match a with | ⟨0, _⟩ => rfl | ⟨1, _⟩ => rfl | ⟨2, _⟩ => rfl))

theorem allowance_at (b : Fin 8) (i : Fin 4096) : val_main_v55 (F := Ideal) x0 (ix2 b i) = allowance x0 b i := by
  rw [val_main_v55_apply, val_main_v54_apply, val_main_cst_2_apply, val_main_v53_apply, val_main_v52_apply,
    val_main_cst_1_apply, area_at]
  rfl

/-- The reference's keep bit of box i of batch b is the off-diagonal decision. -/
theorem keep_apply (b : Fin 8) (i : Fin 4096) :
    val_main_v56 (F := Ideal) x0 x1 (ix2 b i) = keepOthers x0 x1 b i := by
  rw [val_main_v56_apply, sum_at, allowance_at]
  rfl

/-- The reference's boxes: coordinate k of box i of batch b times the keep bit read as a number. -/
theorem boxes_apply (b : Fin 8) (i : Fin 4096) (k : Fin 4) :
    val_main_v60 (F := Ideal) x0 x1 (ix3 b i k)
      = x0 (ix3 b i k) * FloatOps.uitofp (F := Ideal) .f32 (keepOthers x0 x1 b i) := by
  rw [val_main_v60_apply, val_main_v59_apply, val_main_v58_apply, val_main_v57_apply, ← keep_apply x0 x1 b i]
  exact congrArg (fun t => x0 (ix3 b i k) * FloatOps.uitofp (F := Ideal) .f32 (val_main_v56 (F := Ideal) x0 x1 t))
    (funext fun a => Fin.ext (by match a with | ⟨0, _⟩ => rfl | ⟨1, _⟩ => rfl))

end Cert.BoxFilter.Ref

end
-- ==== Proof.FiniteInputs.lean ====
/-
  The precondition makes every box coordinate a real number: "every |x| is below plus infinity", read element by
  element, leaves neither infinity for a coordinate, and an extended real that is neither infinity is a real.
-/
import proofs.«123981_j33380485824748_2_alg».proof.Defs
import proofs.«123981_j33380485824748_2_alg».proof.Proof.Gen.Pre_finite_inputs
import Idealize.ShloMosaic.Lib.ReduceAll
import Idealize.ShloMosaic.Lib.ValueIdx

noncomputable section

namespace Cert.BoxFilter.Finite

open Idealize.ShloMosaic Idealize.ShloMosaic.ValueIdx

/-- The scalar shape has one index. -/
instance : Subsingleton Cert.Pre_finite_inputs.S_.Idx := ⟨fun a b => funext fun d => d.elim0⟩

/-- An extended real whose absolute value is below the plus-infinity word is a real number. -/
theorem real_of_abs_lt (x : EReal)
    (h : FloatOps.cmpf (F := Ideal) (φ := .f32) .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have hlt : max x (-x) < ⊤ := by
    by_contra hn
    have : FloatOps.cmpf (F := Ideal) (φ := .f32) .olt (max x (-x)) ⊤ = 0#1 := by
      show Ideal.cmp .olt (max x (-x)) ⊤ = 0#1
      simp [Ideal.cmp, hn]
    rw [this] at h
    exact absurd h (by decide)
  rw [max_lt_iff] at hlt
  induction x using EReal.rec with
  | bot => exact absurd hlt.2 (by simp)
  | coe r => exact ⟨r, rfl⟩
  | top => exact absurd hlt.1 (by simp)

variable [Cert.Pre_finite_inputs.Facts]

/-- Under the precondition every coordinate of every box is a real number. -/
theorem real_of_pre (x0 : FVec Ideal Cert.Pre_finite_inputs.S8x4096x4 .f32) (x1 : IVec Cert.Pre_finite_inputs.S8x4096 32)
    (h : Cert.Pre_finite_inputs.fn (F := Ideal) x0 x1 = fun _ => 1#1) (j : Cert.Pre_finite_inputs.S8x4096x4.Idx) :
    ∃ r : ℝ, x0 j = (r : EReal) := by
  have h0 := congrFun h ix0
  dsimp only [Cert.Pre_finite_inputs.fn] at h0
  have hj := Host.reduce_andi_all _ _ _ _ _ h0 j
  exact real_of_abs_lt (x0 j) hj

end Cert.BoxFilter.Finite

end
-- ==== Proof.Bridge.lean ====
/-
  The two programs' runs, side by side, and the five claims.

  The idealized kernel ends with its first result at the kept boxes (its region's boxes array) and its second at the
  keep bits (the region's keep words, reshaped and compared with zero, which gives back the bit each word was widened
  from).  The idealized reference ends with the input boxes times its own keep bit as a number, and that bit.  Under the
  precondition every coordinate is a real number, so every area is, and the two keep decisions agree (the full sum less
  the box's own area is the off-diagonal sum); a bit widened to 32 bits and read as a signed integer is the number the
  bit is read as unsigned.  So the two pairs of results are equal, index by index.
-/
import proofs.«123981_j33380485824748_2_alg».proof.Defs
import proofs.«123981_j33380485824748_2_alg».proof.Proof.Gen.Kernel.Frame
import proofs.«123981_j33380485824748_2_alg».proof.Proof.Gen.ReferenceIdeal.Run
import proofs.«123981_j33380485824748_2_alg».proof.Proof.Gen.ReferenceIdeal.Read
import proofs.«123981_j33380485824748_2_alg».proof.Proof.Gen.Pre_finite_inputs
import proofs.«123981_j33380485824748_2_alg».proof.Proof.KernelArrays
import proofs.«123981_j33380485824748_2_alg».proof.Proof.HostTail
import proofs.«123981_j33380485824748_2_alg».proof.Proof.ReferenceSide
import proofs.«123981_j33380485824748_2_alg».proof.Proof.FiniteInputs

set_option maxRecDepth 16384

noncomputable section

open Idealize.ShloMosaic Idealize.ShloMosaic.TcCoe Idealize.SL.Sem Idealize.ShloMosaic.ValueIdx

namespace Cert.BoxFilter.Bridge

open Cert.KernelIdeal Cert.KernelIdeal.Gen Cert.BoxFilter.Blocks Cert.BoxFilter.Arrays

variable (m : (ℓ : Loc nD τ sig) → Buf (Elt Ideal) ℓ) (ρ : Dev nD → PrngReg)

/-- The keep bits: at (b, i) the full-sum decision for box i of batch b. -/
def keepBits (c : Dev nD) : S8x4096.Idx → BitVec 1 :=
  fun idx => BoxFilter.keepAll (X m c) (K m c) ⟨(idx 0).val, (idx 0).isLt⟩ ⟨(idx 1).val, (idx 1).isLt⟩

/-- After the host operations that follow the region, the second result holds the keep bits. -/
theorem tail_keepBits (c : Dev nD) :
    (Pipeline.afterTail₀ cfgs (dats m) 0 (V0 m) [hostOps1] c main_v19 : S8x4096.Idx → BitVec 1) = keepBits m c := by
  funext idx
  obtain ⟨b, i, rfl⟩ : ∃ (b : Fin 8) (i : Fin 4096), idx = ix2 b i := ⟨idx 0, idx 1, eq_ix2 idx⟩
  refine (Cert.BoxFilter.Tail.keep_tail m c (keepWords m c) (keep_final m c) b i).trans ?_
  exact BoxFilter.ne_zero_setWidth _

/-- The idealized kernel's run, read: the kept boxes, the keep bits, the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v15_0) = keptBoxes m c
      ∧ r.2.mem ((c.tc : Thread nD τ).loc main_v19) = keepBits m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).1 5).trans (boxes_final m c),
      ((h c).2 main_v19 (Pipeline.mem_restRefs_of main_v19 (by decide) (by decide))).trans (tail_keepBits m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

/-! ## The two sides' values agree where the areas are real -/

section Agree

variable (Xb : BoxFilter.Boxes) (Kb : BoxFilter.Classes)
  (hreal : ∀ j : (⟨3, ![8, 4096, 4]⟩ : Shape).Idx, ∃ r : ℝ, Xb j = (r : EReal))

include hreal

theorem keep_agree (b : Fin 8) (i : Fin 4096) : BoxFilter.keepOthers Xb Kb b i = BoxFilter.keepAll Xb Kb b i := by
  obtain ⟨a, ha⟩ := BoxFilter.area_real Xb b i (fun k => hreal (ix3 b i k))
  exact (BoxFilter.keepAll_eq_keepOthers Xb Kb b i a ha).symm

theorem number_agree (b : Fin 8) (i : Fin 4096) :
    FloatOps.uitofp (F := Ideal) .f32 (BoxFilter.keepOthers Xb Kb b i)
      = FloatOps.sitofp (F := Ideal) .f32 ((BoxFilter.keepAll Xb Kb b i).setWidth 32) := by
  rw [keep_agree Xb Kb hreal b i]
  show (((BoxFilter.keepAll Xb Kb b i).toNat : ℝ) : EReal) = ((((BoxFilter.keepAll Xb Kb b i).setWidth 32).toInt : ℝ) : EReal)
  rw [BoxFilter.toInt_setWidth]

end Agree

end Cert.BoxFilter.Bridge

/-! ## The claims -/

namespace Cert.Proof.Claims

open Cert.BoxFilter Cert.BoxFilter.Bridge Cert.BoxFilter.Arrays Cert.BoxFilter.Blocks

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- At the ideal values the two programs, run from memories agreeing on the boxes and the classes, end with equal results. -/
theorem algebraic : Cert.algebraic_KernelIdeal_ReferenceIdeal := by
  intro m ρ m' ρ' hpre hagree
  refine ⟨fun c => keptBoxes m c, fun c => keepBits m c, kernel_run m ρ, ?_⟩
  refine (θ_run Cert.ReferenceIdeal.defs _ _).mono (fun r h c => ?_) (Cert.ReferenceIdeal.Value.run (F := Ideal) m' ρ')
  have hreal : ∀ j : (⟨3, ![8, 4096, 4]⟩ : Shape).Idx, ∃ r : ℝ, X m c j = (r : EReal) :=
    fun j => Cert.BoxFilter.Finite.real_of_pre _ _ (hpre c) j
  refine ⟨(h c).1.trans ?_, (h c).2.1.trans ?_, (h c).2.2.1, (h c).2.2.2⟩
  · rw [Cert.ReferenceIdeal.Read.val_main_v60_eq, (hagree c).1, (hagree c).2]
    funext idx
    obtain ⟨b, i, k, rfl⟩ : ∃ (b : Fin 8) (i : Fin 4096) (k : Fin 4), idx = ix3 b i k := ⟨idx 0, idx 1, idx 2, eq_ix3 idx⟩
    refine (Cert.BoxFilter.Ref.boxes_apply (X m c) (K m c) b i k).trans ?_
    rw [number_agree (X m c) (K m c) hreal b i]
    exact (keptBoxes_at m c (ix3 b i k) b i k rfl rfl rfl).symm
  · rw [Cert.ReferenceIdeal.Read.val_main_v56_eq, (hagree c).1, (hagree c).2]
    funext idx
    obtain ⟨b, i, rfl⟩ : ∃ (b : Fin 8) (i : Fin 4096), idx = ix2 b i := ⟨idx 0, idx 1, eq_ix2 idx⟩
    refine (Cert.BoxFilter.Ref.keep_apply (X m c) (K m c) b i).trans ?_
    exact keep_agree (X m c) (K m c) hreal b i

end Cert.Proof.Claims

end
-- ==== Proof.lean ====
/-
  Pairwise box containment with an area-ratio filter: the kernel against its plain reference, over the extended reals.

  For every box i of a batch both programs add up the areas of the same-class boxes lying inside box i, other than i
  itself, and keep box i when that total is at most a fixed fraction of (its own area plus a small constant); the results
  are the boxes with the dropped ones zeroed, and the keep bits.  The reference masks the diagonal out of one sum over all
  4096 boxes.  The kernel sums over ALL boxes, in eight runs of 512 on each of 32 grid points (a batch and a block of 1024
  rows per point), and subtracts box i's own area afterwards: box i is inside itself, sums of extended reals re-group
  freely, and (a + S) - a = S once the area a is a real number, which the precondition (finite coordinates) gives.

  The modules: Containment (the mathematics and the law), BodyPasses and PassValue (the kernel body's two output blocks as
  the specification's values at a row), InputBlocks (what the five input windows hold at a grid point), KernelArrays (the
  blocks tile the two result arrays), HostTail (the keep words back to bits after the region), ReferenceSide (the
  reference's results at an index), FiniteInputs (the precondition read element by element), LibColumnForms (two layout
  lemmas), Bridge (the two runs side by side and the five claims).
-/
import proofs.«123981_j33380485824748_2_alg».proof.Defs
import proofs.«123981_j33380485824748_2_alg».proof.Proof.Gen.Kernel
import proofs.«123981_j33380485824748_2_alg».proof.Proof.Gen.KernelIdeal
import proofs.«123981_j33380485824748_2_alg».proof.Proof.Gen.ReferenceIdeal
import proofs.«123981_j33380485824748_2_alg».proof.Proof.Gen.Pre_finite_inputs
import proofs.«123981_j33380485824748_2_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
